-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x36x128 : Shape := ⟨3, ![16384, 36, 128]⟩
abbrev S36 : Shape := ⟨1, ![36]⟩
abbrev S128x128 : Shape := ⟨2, ![128, 128]⟩
abbrev S128 : Shape := ⟨1, ![128]⟩
abbrev S_ : Shape := ⟨0, ![]⟩

class Facts : Prop where
  bcast_S_S16384x36x128 : S_.BroadcastsInDim S16384x36x128 (![] : Fin 0 → Fin S16384x36x128.rank)
  reducesTo_S16384x36x128_S_d0_1_2 : S16384x36x128.ReducesTo [0, 1, 2] S_
  h_S_ : 0 < S_.numel
  bcast_S_S36 : S_.BroadcastsInDim S36 (![] : Fin 0 → Fin S36.rank)
  reducesTo_S36_S_d0 : S36.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16384x36x128 .f32) (main_arg1 : FVec F S36 .f32) (main_arg2 : FVec F S128x128 .f32) (main_arg3 : FVec F S128 .f32) : IVec S_ 1 :=
  let main_v0 : FVec F S16384x36x128 .f32 := Host.absf main_arg0
  let main_cst : FVec F S_ .f32 := constant S_ .f32 0x7F800000#32
  let main_v1 : FVec F S16384x36x128 .f32 := broadcastInDim S16384x36x128 ![] bcast_S_S16384x36x128 main_cst
  let main_v2 : IVec S16384x36x128 1 := cmpf .olt main_v0 main_v1
  let main_c : IVec S_ 1 := constantI S_ 1 1#1
  let main_v3 : IVec S_ 1 := (fun x v => Host.reduce IntOp.andi x v reducesTo_S16384x36x128_S_d0_1_2 h_S_) main_v2 main_c
  let main_v4 : FVec F S36 .f32 := Host.absf main_arg1
  let main_cst_0 : FVec F S_ .f32 := constant S_ .f32 0x7F800000#32
  let main_v5 : FVec F S36 .f32 := broadcastInDim S36 ![] bcast_S_S36 main_cst_0
  let main_v6 : IVec S36 1 := cmpf .olt main_v4 main_v5
  let main_c_1 : IVec S_ 1 := constantI S_ 1 1#1
  let main_v7 : IVec S_ 1 := (fun x v => Host.reduce IntOp.andi x v reducesTo_S36_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16384x36x128 : Shape := ⟨3, ![16384, 36, 128]⟩
abbrev S36 : Shape := ⟨1, ![36]⟩
abbrev S128x128 : Shape := ⟨2, ![128, 128]⟩
abbrev S128 : Shape := ⟨1, ![128]⟩
abbrev S36x1 : Shape := ⟨2, ![36, 1]⟩
abbrev S1x128 : Shape := ⟨2, ![1, 128]⟩
abbrev S16384x12x128 : Shape := ⟨3, ![16384, 12, 128]⟩
abbrev S256x36x128 : Shape := ⟨3, ![256, 36, 128]⟩
abbrev S256x12x128 : Shape := ⟨3, ![256, 12, 128]⟩
abbrev S36x128 : Shape := ⟨2, ![36, 128]⟩
abbrev S1x36x128 : Shape := ⟨3, ![1, 36, 128]⟩
abbrev S256x6x128 : Shape := ⟨3, ![256, 6, 128]⟩
abbrev S1536x6x128 : Shape := ⟨3, ![1536, 6, 128]⟩
abbrev S1536x128 : Shape := ⟨2, ![1536, 128]⟩
abbrev S3072x128 : Shape := ⟨2, ![3072, 128]⟩

abbrev nBuf : Space → Nat
  | .hbm => 9
  | .vmem => 8
  | .smem => 0
  | _ => 0

abbrev bufTy : (tb : Table) → Fin (tcTables nBuf tb) → BufTy
  | .hbm, ⟨0, _⟩ => ⟨S16384x36x128, .f32⟩
  | .hbm, ⟨1, _⟩ => ⟨S36, .f32⟩
  | .hbm, ⟨2, _⟩ => ⟨S128x128, .f32⟩
  | .hbm, ⟨3, _⟩ => ⟨S128, .f32⟩
  | .hbm, ⟨4, _⟩ => ⟨S36x1, .f32⟩
  | .hbm, ⟨5, _⟩ => ⟨S1x128, .f32⟩
  | .hbm, ⟨6, _⟩ => ⟨S16384x12x128, .f32⟩
  | .hbm, ⟨7, _⟩ => ⟨S36x1, .f32⟩
  | .hbm, ⟨8, _⟩ => ⟨S36, .f32⟩
  | .local _ .vmem, ⟨0, _⟩ => ⟨S36x1, .f32⟩
  | .local _ .vmem, ⟨1, _⟩ => ⟨S128x128, .f32⟩
  | .local _ .vmem, ⟨2, _⟩ => ⟨S1x128, .f32⟩
  | .local _ .vmem, ⟨3, _⟩ => ⟨S256x36x128, .f32⟩
  | .local _ .vmem, ⟨4, _⟩ => ⟨S256x36x128, .f32⟩
  | .local _ .vmem, ⟨5, _⟩ => ⟨S256x12x128, .f32⟩
  | .local _ .vmem, ⟨6, _⟩ => ⟨S256x12x128, .f32⟩
  | .local _ .vmem, ⟨7, _⟩ => ⟨S36x1, .f32⟩
  | _, _ => ⟨S16384x36x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S36x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x36x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x12x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S36x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S36_S36x1 : S36.ShapeCasts S36x1
  shapeCasts_S128_S1x128 : S128.ShapeCasts S1x128
  inb_S36x1_S36x1_0_0 : ∀ a, (![0, 0] : Fin 2 → Nat) a + S36x1.size a ≤ S36x1.size a
  h_S36x1 : 0 < S36x1.numel
  shapeCasts_S36x1_S36x1 : S36x1.ShapeCasts S36x1
  inb_S256x36x128_S256x36x128_0_0_0 : ∀ a, (![0, 0, 0] : Fin 3 → Nat) a + S256x36x128.size a ≤ S256x36x128.size a
  h_S256x36x128 : 0 < S256x36x128.numel
  broadcasts_S36x1_S36x128 : S36x1.Broadcasts S36x128
  shapeCasts_S36x128_S1x36x128 : S36x128.ShapeCasts S1x36x128
  broadcasts_S1x36x128_S256x36x128 : S1x36x128.Broadcasts S256x36x128
  slices_S256x36x128_o0_0_0_S256x6x128 : S256x36x128.Slices ![0, 0, 0] S256x6x128
  slices_S256x36x128_o0_6_0_S256x6x128 : S256x36x128.Slices ![0, 6, 0] S256x6x128
  slices_S256x36x128_o0_12_0_S256x6x128 : S256x36x128.Slices ![0, 12, 0] S256x6x128
  slices_S256x36x128_o0_18_0_S256x6x128 : S256x36x128.Slices ![0, 18, 0] S256x6x128
  slices_S256x36x128_o0_24_0_S256x6x128 : S256x36x128.Slices ![0, 24, 0] S256x6x128
  slices_S256x36x128_o0_30_0_S256x6x128 : S256x36x128.Slices ![0, 30, 0] S256x6x128
  shapeCasts_S256x36x128_S1536x6x128 : S256x36x128.ShapeCasts S1536x6x128
  reduces_S1536x6x128_S1536x128 : S1536x6x128.Reduces [1] S1536x128
  shapeCasts_S1536x128_S256x6x128 : S1536x128.ShapeCasts S256x6x128
  concatenates_S256x6x128_S256x6x128_S256x12x128_d1 : Shape.Concatenates [S256x6x128, S256x6x128] S256x12x128 1
  shapeCasts_S256x12x128_S3072x128 : S256x12x128.ShapeCasts S3072x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3072x128 : S1x128.Broadcasts S3072x128
  shapeCasts_S3072x128_S256x12x128 : S3072x128.ShapeCasts S256x12x128
  inb_S256x12x128_S256x12x128_0_0_0 : ∀ a, (![0, 0, 0] : Fin 3 → Nat) a + S256x12x128.size a ≤ S256x12x128.size a
  h_S256x12x128 : 0 < S256x12x128.numel
  shapeCasts_S36x1_S36 : S36x1.ShapeCasts S36
  dot_S3072x128_S128x128_S3072x128_1_1_0_0_n_n_wf : DotDims.WF S3072x128 S128x128 S3072x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S36x1.size a ≤ S36x1.size a
  hwx0_0 : ∀ i : grid0.Coords, EltTy.bits .f32 = 32 ∨ (Rect.block (s := S36x1) S36x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x36x128.size a ≤ S16384x36x128.size a
  hwx0_3 : ∀ i : grid0.Coords, EltTy.bits .f32 = 32 ∨ (Rect.block (s := S16384x36x128) S256x36x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x12x128.size a ≤ S16384x12x128.size a
  hwx0_4 : ∀ i : grid0.Coords, EltTy.bits .f32 = 32 ∨ (Rect.block (s := S16384x12x128) S256x12x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S36x1.size a ≤ S36x1.size a
  hwx0_5 : ∀ i : grid0.Coords, EltTy.bits .f32 = 32 ∨ (Rect.block (s := S36x1) S36x1.size (cc0_transform_5 i) (hinb0_5 i)).WholeWords (EltTy.packing .f32)

variable [Facts₀]

def dot_S3072x128_S128x128_S3072x128_1_1_0_0_n_n : DotDims S3072x128 S128x128 S3072x128 where
  lhsContracting := [1]
  rhsContracting := [1]
  lhsNonContracting := [0]
  rhsNonContracting := [0]
  lhsBatch := []
  rhsBatch := []
  wf := dot_S3072x128_S128x128_S3072x128_1_1_0_0_n_n_wf

abbrev win0_0 : Pipeline.Window sig grid0 :=
  Pipeline.Window.ofSpec (Memref.whole main_v0) S36x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S256x36x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S256x12x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S36x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x36x128 : Shape := ⟨3, ![16384, 36, 128]⟩
abbrev S36 : Shape := ⟨1, ![36]⟩
abbrev S128x128 : Shape := ⟨2, ![128, 128]⟩
abbrev S128 : Shape := ⟨1, ![128]⟩
abbrev S_ : Shape := ⟨0, ![]⟩
abbrev S1x36x1 : Shape := ⟨3, ![1, 36, 1]⟩
abbrev S16384x12x128 : Shape := ⟨3, ![16384, 12, 128]⟩
abbrev S36x1 : Shape := ⟨2, ![36, 1]⟩
abbrev S1x1x128 : Shape := ⟨3, ![1, 1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x36x128, .f32⟩
  | .hbm, ⟨1, _⟩ => ⟨S36, .f32⟩
  | .hbm, ⟨2, _⟩ => ⟨S128x128, .f32⟩
  | .hbm, ⟨3, _⟩ => ⟨S128, .f32⟩
  | .hbm, ⟨4, _⟩ => ⟨S36, .i32⟩
  | .hbm, ⟨5, _⟩ => ⟨S36, .i32⟩
  | .hbm, ⟨6, _⟩ => ⟨S_, .f32⟩
  | .hbm, ⟨7, _⟩ => ⟨S36, .f32⟩
  | .hbm, ⟨8, _⟩ => ⟨S36, .f32⟩
  | .hbm, ⟨9, _⟩ => ⟨S36, .f32⟩
  | .hbm, ⟨10, _⟩ => ⟨S36, .f32⟩
  | .hbm, ⟨11, _⟩ => ⟨S36, .i1⟩
  | .hbm, ⟨12, _⟩ => ⟨S36, .f32⟩
  | .hbm, ⟨13, _⟩ => ⟨S36, .f32⟩
  | .hbm, ⟨14, _⟩ => ⟨S36, .f32⟩
  | .hbm, ⟨15, _⟩ => ⟨S36, .f32⟩
  | .hbm, ⟨16, _⟩ => ⟨S36, .f32⟩
  | .hbm, ⟨17, _⟩ => ⟨S36, .f32⟩
  | .hbm, ⟨18, _⟩ => ⟨S36, .f32⟩
  | .hbm, ⟨19, _⟩ => ⟨S36, .f32⟩
  | .hbm, ⟨20, _⟩ => ⟨S1x36x1, .f32⟩
  | .hbm, ⟨21, _⟩ => ⟨S16384x36x128, .f32⟩
  | .hbm, ⟨22, _⟩ => ⟨S16384x36x128, .f32⟩
  | .hbm, ⟨23, _⟩ => ⟨S_, .f32⟩
  | .hbm, ⟨24, _⟩ => ⟨S16384x12x128, .f32⟩
  | .hbm, ⟨25, _⟩ => ⟨S_, .i32⟩
  | .hbm, ⟨26, _⟩ => ⟨S36, .i32⟩
  | .hbm, ⟨27, _⟩ => ⟨S36, .i1⟩
  | .hbm, ⟨28, _⟩ => ⟨S_, .i32⟩
  | .hbm, ⟨29, _⟩ => ⟨S36, .i32⟩
  | .hbm, ⟨30, _⟩ => ⟨S36, .i32⟩
  | .hbm, ⟨31, _⟩ => ⟨S36, .i32⟩
  | .hbm, ⟨32, _⟩ => ⟨S36x1, .i32⟩
  | .hbm, ⟨33, _⟩ => ⟨S16384x12x128, .f32⟩
  | .hbm, ⟨34, _⟩ => ⟨S_, .i32⟩
  | .hbm, ⟨35, _⟩ => ⟨S36, .i32⟩
  | .hbm, ⟨36, _⟩ => ⟨S36, .i1⟩
  | .hbm, ⟨37, _⟩ => ⟨S_, .i32⟩
  | .hbm, ⟨38, _⟩ => ⟨S36, .i32⟩
  | .hbm, ⟨39, _⟩ => ⟨S36, .i32⟩
  | .hbm, ⟨40, _⟩ => ⟨S36, .i32⟩
  | .hbm, ⟨41, _⟩ => ⟨S36x1, .i32⟩
  | .hbm, ⟨42, _⟩ => ⟨S16384x12x128, .f32⟩
  | .hbm, ⟨43, _⟩ => ⟨S16384x12x128, .f32⟩
  | .hbm, ⟨44, _⟩ => ⟨S1x1x128, .f32⟩
  | .hbm, ⟨45, _⟩ => ⟨S16384x12x128, .f32⟩
  | .hbm, ⟨46, _⟩ => ⟨S16384x12x128, .f32⟩
  | .hbm, ⟨47, _⟩ => ⟨S_, .f32⟩
  | .hbm, ⟨48, _⟩ => ⟨S16384x12x128, .f32⟩
  | .hbm, ⟨49, _⟩ => ⟨S16384x12x128, .f32⟩
  | _, _ => ⟨S16384x36x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_3 : Ref sig .tc := ⟨.hbm, 34, rfl⟩
abbrev main_v12 : Ref sig .tc := ⟨.hbm, 35, rfl⟩
abbrev main_v13 : Ref sig .tc := ⟨.hbm, 36, rfl⟩
abbrev main_c_4 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call1_cst : Ref sig .tc := ⟨.hbm, 47, rfl⟩
abbrev main_call1_v0 : Ref sig .tc := ⟨.hbm, 48, rfl⟩
abbrev main_v23 : Ref sig .tc := ⟨.hbm, 49, rfl⟩

abbrev nD : Nat := 1
abbrev τ : Topo := Topo.v7x

variable {F : FTy → Type} [FloatOps F]

class Facts₀ : Prop where
  bcast_S_S36 : S_.BroadcastsInDim S36 (![] : Fin 0 → Fin S36.rank)
  shapeCasts_S36_S1x36x1 : S36.ShapeCasts S1x36x1
  bcast_S1x36x1_S16384x36x128_0_1_2 : S1x36x1.BroadcastsInDim S16384x36x128 (![0, 1, 2] : Fin 3 → Fin S16384x36x128.rank)
  bcast_S_S16384x12x128 : S_.BroadcastsInDim S16384x12x128 (![] : Fin 0 → Fin S16384x12x128.rank)
  bcast_S36_S36x1_0 : S36.BroadcastsInDim S36x1 (![0] : Fin 1 → Fin S36x1.rank)
  bcast_S128_S1x1x128_2 : S128.BroadcastsInDim S1x1x128 (![2] : Fin 1 → Fin S1x1x128.rank)
  bcast_S1x1x128_S16384x12x128_0_1_2 : S1x1x128.BroadcastsInDim S16384x12x128 (![0, 1, 2] : Fin 3 → Fin S16384x12x128.rank)
  scatter_S16384x12x128_S36x1_S16384x36x128_02_1_1_1_wf : ScatterDims.WF S16384x12x128 S36x1 S16384x36x128 [0, 2] [1] [1] 1
  dot_S16384x12x128_S128x128_S16384x12x128_2_1_01_0_n_n_wf : DotDims.WF S16384x12x128 S128x128 S16384x12x128 [2] [1] [0, 1] [0] [] []

variable [Facts₀]

def scatter_S16384x12x128_S36x1_S16384x36x128_02_1_1_1 : ScatterDims S16384x12x128 S36x1 S16384x36x128 where
  updateWindowDims := [0, 2]
  insertedWindowDims := [1]
  scatterDimsToOperandDims := [1]
  indexVectorDim := 1
  wf := scatter_S16384x12x128_S36x1_S16384x36x128_02_1_1_1_wf
def dot_S16384x12x128_S128x128_S16384x12x128_2_1_01_0_n_n : DotDims S16384x12x128 S128x128 S16384x12x128 where
  lhsContracting := [2]
  rhsContracting := [1]
  lhsNonContracting := [0, 1]
  rhsNonContracting := [0]
  lhsBatch := []
  rhsBatch := []
  wf := dot_S16384x12x128_S128x128_S16384x12x128_2_1_01_0_n_n_wf

class Facts : Prop extends Facts₀ where

variable [Facts]
-- ==== Proof.KBlocks.lean ====
/-
  The kernel's arrays and blocks, read at an index.

  Before the region the edge weights are re-laid as a [36, 1] column and the bias as a [1, 128] row.  At grid point t the
  kernel is handed the whole weight column, the whole matrix, the whole bias row, and samples 256·t … 256·t + 255 of the
  edge features; it writes samples 256·t … 256·t + 255 of the node features and (every time the same) weight column.
-/
import proofs.«128990_g3865470566685_cont_8to1_b_833_6_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KBlocks

open Cert.KernelIdeal Cert.KernelIdeal.Gen Idealize.ShloMosaic.StableHlo

variable {F : FTy → Type} [FloatOps F]
variable (m : (ℓ : Loc nD τ sig) → Buf (Elt F) ℓ)

/-- The weight column the region finds is the weight vector re-laid. -/
theorem V_v0 (c : Dev nD) : (V m c main_v0 : S36x1.Idx → Elt F .f32)
    = shapeCast S36x1 (m ((c : Thread nD τ).loc main_arg1) : S36.Idx → Elt F .f32) shapeCasts_S36_S36x1 := by
  show StableHlo.after hostOps0 (fun b => m (c, b)) (Proc.devRef .tc main_v0) = _
  after_results
  rfl

/-- The bias row the region finds is the bias vector re-laid. -/
theorem V_v1 (c : Dev nD) : (V m c main_v1 : S1x128.Idx → Elt F .f32)
    = shapeCast S1x128 (m ((c : Thread nD τ).loc main_arg3) : S128.Idx → Elt F .f32) shapeCasts_S128_S1x128 := by
  show StableHlo.after hostOps0 (fun b => m (c, b)) (Proc.devRef .tc main_v1) = _
  after_results
  rfl

/-- Where each window's block sits at point t: the features' and the node features' blocks move with t along the sample
    axis, every other window stays at the origin. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 2) = 0 ∧ win0_5.index t (1 : Fin 2) = 0 :=
  (by decide +kernel : ∀ t : Fin grid0.N, _)

/-- The features' block at point t is samples 256·t … 256·t + 255 of the argument. -/
theorem iblk3_apply (c : Dev nD) (t : Fin cfg0.N) (p : Fin 256) (e : Fin 36) (k : Fin 128) (a : Fin 16384)
    (ha : a.val = 256 * t.val + p.val) :
    (iblk m c 3 t : Vec F S256x36x128 .f32) (ix3 p e k)
      = (m ((c : Thread nD τ).loc main_arg0) : S16384x36x128.Idx → Elt F .f32) (ix3 a e k) := by
  obtain ⟨_, _, _, _, _, _, h0, h1, h2, _⟩ := idx_facts t
  unfold iblk
  rw [View.read_apply]
  show V m c main_arg0 _ = _
  rw [V_main_arg0]
  refine congrArg (m ((c : Thread nD τ).loc main_arg0) : S16384x36x128.Idx → Elt F .f32) ?_
  funext x
  apply Fin.ext
  match x with
  | ⟨0, _⟩ => show win0_3.index t (0 : Fin 3) * 256 + 1 * p.val = a.val; omega
  | ⟨1, _⟩ => show win0_3.index t (1 : Fin 3) * 36 + 1 * e.val = e.val; omega
  | ⟨2, _⟩ => show win0_3.index t (2 : Fin 3) * 128 + 1 * k.val = k.val; omega

/-- The weight column's block is, at every point, the whole column: entry e is the weight vector's entry e. -/
theorem iblk0_apply (c : Dev nD) (t : Fin cfg0.N) (e : Fin 36) (z : Fin 1) :
    (iblk m c 0 t : Vec F S36x1 .f32) (ix2 e z)
      = (m ((c : Thread nD τ).loc main_arg1) : S36.Idx → Elt F .f32) (ix1 e) := by
  obtain ⟨h0, h1, _⟩ := idx_facts t
  unfold iblk
  rw [View.read_apply]
  show V m c main_v0 _ = _
  rw [V_v0]
  refine shapeCast_apply _ _ _ _ ?_
  show (S36.rowMajor (ix1 e)).val = (S36x1.rowMajor (((cfg0.win 0).blk t).view.emb (ix2 e z))).val
  rw [Shape.rowMajor_val_one, Shape.rowMajor_val_two]
  show e.val = (win0_0.index t (0 : Fin 2) * 36 + 1 * e.val) * 1 + (win0_0.index t (1 : Fin 2) * 1 + 1 * z.val)
  have := z.isLt
  omega

/-- The matrix's block is, at every point, the whole matrix. -/
theorem iblk1_apply (c : Dev nD) (t : Fin cfg0.N) (o : Fin 128) (k : Fin 128) :
    (iblk m c 1 t : Vec F S128x128 .f32) (ix2 o k)
      = (m ((c : Thread nD τ).loc main_arg2) : S128x128.Idx → Elt F .f32) (ix2 o k) := by
  obtain ⟨_, _, h0, h1, _⟩ := idx_facts t
  unfold iblk
  rw [View.read_apply]
  show V m c main_arg2 _ = _
  rw [V_main_arg2]
  refine congrArg (m ((c : Thread nD τ).loc main_arg2) : S128x128.Idx → Elt F .f32) ?_
  funext x
  apply Fin.ext
  match x with
  | ⟨0, _⟩ => show win0_1.index t (0 : Fin 2) * 128 + 1 * o.val = o.val; omega
  | ⟨1, _⟩ => show win0_1.index t (1 : Fin 2) * 128 + 1 * k.val = k.val; omega

/-- The bias row's block is, at every point, the whole row: entry o is the bias vector's entry o. -/
theorem iblk2_apply (c : Dev nD) (t : Fin cfg0.N) (z : Fin 1) (o : Fin 128) :
    (iblk m c 2 t : Vec F S1x128 .f32) (ix2 z o)
      = (m ((c : Thread nD τ).loc main_arg3) : S128.Idx → Elt F .f32) (ix1 o) := by
  obtain ⟨_, _, _, _, h0, h1, _⟩ := idx_facts t
  unfold iblk
  rw [View.read_apply]
  show V m c main_v1 _ = _
  rw [V_v1]
  refine shapeCast_apply _ _ _ _ ?_
  show (S128.rowMajor (ix1 o)).val = (S1x128.rowMajor (((cfg0.win 2).blk t).view.emb (ix2 z o))).val
  rw [Shape.rowMajor_val_one, Shape.rowMajor_val_two]
  show o.val = (win0_2.index t (0 : Fin 2) * 1 + 1 * z.val) * 128 + (win0_2.index t (1 : Fin 2) * 128 + 1 * o.val)
  have := z.isLt
  omega

end Cert.KernelIdeal.KBlocks

end
-- ==== Proof.Spec.lean ====
/-
  What both programs compute, as functions of the four argument arrays, at the extended reals.

  A graph of 12 nodes — 6 sources and 6 destinations — has one edge from every source i to every destination 6 + k;
  edge e = 6·i + k.  Each edge carries a learnt weight; the weight used is its softplus, max(x, 0) + log(1 + exp(−|x|)).
  For every sample the 128 features of each edge are scaled by the edge's weight and summed onto the edge's two end
  nodes; each node's 128 summed features then go through a dense layer (a 128×128 matrix acting on the feature axis,
  plus a bias) and are floored at zero.  The second result is the vector of the 36 softplus weights.
-/
import Idealize.ShloMosaic.PureOps.Ideal
import Idealize.ShloMosaic.Lib.ValueIdx

noncomputable section

namespace Cert.GraphSpec

open Idealize.ShloMosaic Idealize.ShloMosaic.ValueIdx

/-- The edge features, [samples, edges, features]. -/
abbrev SX : Shape := ⟨3, ![16384, 36, 128]⟩
/-- The edge weights. -/
abbrev Sw : Shape := ⟨1, ![36]⟩
/-- The dense layer's matrix, [outputs, inputs]. -/
abbrev SW : Shape := ⟨2, ![128, 128]⟩
/-- The dense layer's bias. -/
abbrev Sb : Shape := ⟨1, ![128]⟩
/-- The node features, [samples, nodes, features]. -/
abbrev SO : Shape := ⟨3, ![16384, 12, 128]⟩

/-- The softplus of an extended real, in the form both programs evaluate it: max(x, 0) + log(1 + exp(−|x|)), with
    |x| = max(x, −x). -/
def sp (x : EReal) : EReal := max x 0 + Ideal.log1p (Ideal.exp (-(max x (-x))))

/-- The sum of an edge-indexed family onto node n: a source node n < 6 collects its six outgoing edges 6·n + k, a
    destination node n ≥ 6 its six incoming edges 6·i + (n − 6). -/
def edgeSum (f : Fin 36 → EReal) (n : Fin 12) : EReal :=
  if n.val < 6 then ∑ k : Fin 6, f ⟨(6 * n.val + k.val) % 36, Nat.mod_lt _ (by norm_num)⟩
  else ∑ i : Fin 6, f ⟨(6 * i.val + (n.val - 6)) % 36, Nat.mod_lt _ (by norm_num)⟩

/-- One entry of the dense layer on a node: the node's summed features `edgeSum (f · k)` against a matrix row `Wr`,
    plus the bias entry, floored at zero. -/
def cell (f : Fin 36 → Fin 128 → EReal) (Wr : Fin 128 → EReal) (bias : EReal) (n : Fin 12) : EReal :=
  max ((∑ k : Fin 128, edgeSum (fun e => f e k) n * Wr k) + bias) 0

/-- The node features of sample a, node n, output feature o. -/
def outAt (X : FVec Ideal SX .f32) (w : FVec Ideal Sw .f32) (W : FVec Ideal SW .f32) (b : FVec Ideal Sb .f32)
    (a : Fin 16384) (n : Fin 12) (o : Fin 128) : EReal :=
  cell (fun e k => X (ix3 a e k) * sp (w (ix1 e))) (fun k => W (ix2 o k)) (b (ix1 o)) n

/-- The first result: the node features as one array. -/
def out (X : FVec Ideal SX .f32) (w : FVec Ideal Sw .f32) (W : FVec Ideal SW .f32) (b : FVec Ideal Sb .f32) :
    FVec Ideal SO .f32 :=
  fun j => outAt X w W b (j 0) (j 1) (j 2)

theorem out_ix3 (X : FVec Ideal SX .f32) (w : FVec Ideal Sw .f32) (W : FVec Ideal SW .f32) (b : FVec Ideal Sb .f32)
    (a : Fin 16384) (n : Fin 12) (o : Fin 128) : out X w W b (ix3 a n o) = outAt X w W b a n o := rfl

/-- The second result: the softplus of every edge weight. -/
def wts (w : FVec Ideal Sw .f32) : FVec Ideal Sw .f32 := fun e => sp (w e)

end Cert.GraphSpec

end
-- ==== Proof.KFinal.lean ====
/-
  The kernel program's two results as functions of its arguments.

  At grid point t the body leaves, in the node features' block, the dense layer of the node sums of samples
  256·t … 256·t + 255 — block t of the whole result `GraphSpec.out` —, and in the weight column's block the softplus of
  every weight.  The 64 node-feature blocks tile the result array; the weight column is written back once, whole, after
  the last point, and the operation after the region re-lays it as a vector.
-/
import proofs.«128990_g3865470566685_cont_8to1_b_833_6_alg».proof.Proof.KBlocks
import proofs.«128990_g3865470566685_cont_8to1_b_833_6_alg».proof.Proof.Spec

noncomputable section

open Idealize.ShloMosaic Idealize.ShloMosaic.TcCoe Idealize.SL.Sem Idealize.ShloMosaic.ValueIdx
open Idealize.ShloMosaic.Pipeline (Dat)

namespace Cert.KernelIdeal.KFinal

open Cert.KernelIdeal Cert.KernelIdeal.Gen Cert.KernelIdeal.KBlocks Idealize.ShloMosaic.StableHlo

variable (m : (ℓ : Loc nD τ sig) → Buf (Elt Ideal) ℓ) (ρ : Dev nD → PrngReg)

/-- What the body's arithmetic is, index by index (proved where the body's operations are read one by one): the stored
    node-feature block at (p, n, o) is one dense-layer entry of the block's node sums, -/
def Pay1 : Prop := ∀ (x0 : Vec Ideal S36x1 .f32) (x3 : Vec Ideal S256x36x128 .f32) (x1 : Vec Ideal S128x128 .f32) (x2 : Vec Ideal S1x128 .f32)
    (p : Fin 256) (n : Fin 12) (o : Fin 128),
    k0_pay1 (F := Ideal) (k0_pay3 x0 x3 x1) (k0_pay4 x2) (ix3 p n o)
      = Cert.GraphSpec.cell (fun e k => x3 (ix3 p e k) * Cert.GraphSpec.sp (x0 (ix2 e 0))) (fun k => x1 (ix2 o k)) (x2 (ix2 0 o)) n
/-- and the stored weight column at e is the softplus of the weight. -/
def Pay2 : Prop := ∀ (v0 : Vec Ideal S36x1 .f32) (e : Fin 36) (z : Fin 1),
    k0_pay2 (F := Ideal) v0 (ix2 e z) = Cert.GraphSpec.sp (v0 (ix2 e z))

theorem hz2 : (![0, 0] : Fin 2 → Nat) = fun _ => 0 := funext fun a => by fin_cases a <;> rfl
theorem hz3 : (![0, 0, 0] : Fin 3 → Nat) = fun _ => 0 := funext fun a => by fin_cases a <;> rfl

/-- The four argument arrays as launched, on core c. -/
abbrev X₀ (c : Dev nD) : S16384x36x128.Idx → Elt Ideal .f32 := m ((c : Thread nD τ).loc main_arg0)
abbrev w₀ (c : Dev nD) : S36.Idx → Elt Ideal .f32 := m ((c : Thread nD τ).loc main_arg1)
abbrev W₀ (c : Dev nD) : S128x128.Idx → Elt Ideal .f32 := m ((c : Thread nD τ).loc main_arg2)
abbrev b₀ (c : Dev nD) : S128.Idx → Elt Ideal .f32 := m ((c : Thread nD τ).loc main_arg3)

/-- The node-feature block the body leaves at point t, at (p, n, o), is the whole result at sample 256·t + p. -/
theorem pay1_block (h1 : Pay1) (c : Dev nD) (t : Fin cfg0.N) (p : Fin 256) (n : Fin 12) (o : Fin 128) (a : Fin 16384)
    (ha : a.val = 256 * t.val + p.val) :
    k0_pay1 (F := Ideal) (k0_pay3 (iblk m c 0 t) (iblk m c 3 t) (iblk m c 1 t)) (k0_pay4 (iblk m c 2 t)) (ix3 p n o)
      = Cert.GraphSpec.out (X₀ m c) (w₀ m c) (W₀ m c) (b₀ m c) (ix3 a n o) := by
  refine (h1 (iblk m c 0 t) (iblk m c 3 t) (iblk m c 1 t) (iblk m c 2 t) p n o).trans ?_
  rw [Cert.GraphSpec.out_ix3]
  unfold Cert.GraphSpec.outAt
  simp only [iblk3_apply m c t p _ _ a ha, iblk0_apply m c t, iblk1_apply m c t, iblk2_apply m c t]

/-- The same at any index of the block. -/
theorem pay1_block' (h1 : Pay1) (c : Dev nD) (t : Fin cfg0.N) (ht : t.val < 64) (y : S256x12x128.Idx) :
    k0_pay1 (F := Ideal) (k0_pay3 (iblk m c 0 t) (iblk m c 3 t) (iblk m c 1 t)) (k0_pay4 (iblk m c 2 t)) y
      = Cert.GraphSpec.out (X₀ m c) (w₀ m c) (W₀ m c) (b₀ m c)
          (ix3 (⟨256 * t.val + (y 0).val, by have h : (y 0).val < 256 := (y 0).isLt; omega⟩ : Fin 16384) (y 1) (y 2)) := by
  obtain ⟨p, n, o, rfl⟩ : ∃ (p : Fin 256) (n : Fin 12) (o : Fin 128), y = ix3 p n o := ⟨y 0, y 1, y 2, eq_ix3 y⟩
  exact pay1_block m h1 c t p n o _ rfl

/-- WHAT POINT t WRITES BACK to the node features is block t of the whole result. -/
theorem flushed4_eq (h1 : Pay1) (c : Dev nD) (t : Fin cfg0.N) :
    (dats m 0 c).flushed 4 t
      = ((cfg0.win 4).blk t).view.read (Elt Ideal) (Cert.GraphSpec.out (X₀ m c) (w₀ m c) (W₀ m c) (b₀ m c)) := by
  show (cfg0.win 4).cut (grid0.coords t) ((dats m 0 c).after 4 t) = _
  rw [after0_4]
  unfold out0_4
  rw [View.canon_unit_zero hz3]
  simp only [View.ld_unit_zero (S := S36x1) hz2, View.ld_unit_zero (S := S256x36x128) hz3,
    View.ld_unit_zero (S := S128x128) hz2, View.ld_unit_zero (S := S1x128) hz2]
  have hN : cfg0.N = 64 := N_0
  obtain ⟨_, _, _, _, _, _, _, _, _, h0, h1', h2, _⟩ := idx_facts t
  funext j
  have ht : t.val < 64 := hN ▸ t.isLt
  refine (pay1_block' m h1 c t ht j).trans ?_
  show Cert.GraphSpec.out _ _ _ _ _ = Cert.GraphSpec.out _ _ _ _ (((cfg0.win 4).blk t).view.emb j)
  refine congrArg (Cert.GraphSpec.out (X₀ m c) (w₀ m c) (W₀ m c) (b₀ m c)) ?_
  funext x
  apply Fin.ext
  match x with
  | ⟨0, _⟩ => show 256 * t.val + (j 0).val = win0_4.index t (0 : Fin 3) * 256 + 1 * (j 0).val; omega
  | ⟨1, _⟩ => show (j 1).val = win0_4.index t (1 : Fin 3) * 12 + 1 * (j 1).val; omega
  | ⟨2, _⟩ => show (j 2).val = win0_4.index t (2 : Fin 3) * 128 + 1 * (j 2).val; omega

/-- The weight column the kernel writes: the softplus of every weight, as a [36, 1] column. -/
def wcol (w : S36.Idx → Elt Ideal .f32) : S36x1.Idx → Elt Ideal .f32 :=
  fun i => Cert.GraphSpec.sp (w (ix1 (⟨(i 0).val, idx2_lt0 i⟩ : Fin 36)))

/-- The weight column the body leaves at any point is that column. -/
theorem pay2_block (h2 : Pay2) (c : Dev nD) (t : Fin cfg0.N) (y : S36x1.Idx) :
    k0_pay2 (F := Ideal) (iblk m c 0 t) y = wcol (w₀ m c) y := by
  obtain ⟨e, z, rfl⟩ : ∃ (e : Fin 36) (z : Fin 1), y = ix2 e z := ⟨y 0, y 1, eq_ix2 y⟩
  refine (h2 (iblk m c 0 t) e z).trans ?_
  rw [iblk0_apply m c t e z]
  rfl

/-- WHAT POINT t WOULD WRITE BACK to the weight column is the whole column. -/
theorem flushed5_eq (h2 : Pay2) (c : Dev nD) (t : Fin cfg0.N) :
    (dats m 0 c).flushed 5 t = ((cfg0.win 5).blk t).view.read (Elt Ideal) (wcol (w₀ m c)) := by
  show (cfg0.win 5).cut (grid0.coords t) ((dats m 0 c).after 5 t) = _
  rw [after0_5]
  unfold out0_5
  rw [View.canon_unit_zero hz2]
  simp only [View.ld_unit_zero (S := S36x1) hz2]
  obtain ⟨_, _, _, _, _, _, _, _, _, _, _, _, h0, h1'⟩ := idx_facts t
  funext j
  refine (pay2_block m h2 c t j).trans ?_
  show wcol _ _ = wcol _ (((cfg0.win 5).blk t).view.emb j)
  refine congrArg (wcol (w₀ m c)) ?_
  funext x
  apply Fin.ext
  match x with
  | ⟨0, _⟩ => show (j 0).val = win0_5.index t (0 : Fin 2) * 36 + 1 * (j 0).val; omega
  | ⟨1, _⟩ => show (j 1).val = win0_5.index t (1 : Fin 2) * 1 + 1 * (j 1).val; omega

/-- An index of the node features is in point t's block iff each coordinate is in the block's range on its axis. -/
theorem mem_blk4 (t : Fin cfg0.N) (i : S16384x12x128.Idx) :
    i ∈ ((cfg0.win 4).blk t).view.set ↔ ∀ a : Fin 3, win0_4.index t a * S256x12x128.size a ≤ (i a).val
      ∧ (i a).val < win0_4.index t a * S256x12x128.size a + S256x12x128.size a := by
  show i ∈ ((View.whole main_v2_0).slice (win0_4.rect t)).set ↔ _
  rw [View.set_slice_whole, Rect.mem_set_unit]
  exact Iff.rfl

/-- Sample a lies in the block of point a / 256: the 64 blocks tile the node features. -/
theorem cover4 (i : S16384x12x128.Idx) :
    ∃ t : Fin cfg0.N, (cfg0.win 4).flush t = true ∧ i ∈ ((cfg0.win 4).blk t).view.set := by
  have hN : cfg0.N = 64 := N_0
  have hi0 : (i 0).val < 16384 := (i 0).isLt
  have hi1 : (i 1).val < 12 := (i 1).isLt
  have hi2 : (i 2).val < 128 := (i 2).isLt
  have hlt : (i 0).val / 256 < cfg0.N := by rw [hN]; omega
  obtain ⟨_, _, _, _, _, _, _, _, _, h0, h1', h2, _⟩ := idx_facts ⟨(i 0).val / 256, hlt⟩
  have h0' : win0_4.index ⟨(i 0).val / 256, hlt⟩ (0 : Fin 3) = (i 0).val / 256 := h0
  refine ⟨⟨(i 0).val / 256, hlt⟩, flush0_4 _, ?_⟩
  rw [mem_blk4]
  intro a
  match a with
  | ⟨0, _⟩ =>
    show win0_4.index ⟨(i 0).val / 256, hlt⟩ (0 : Fin 3) * 256 ≤ (i 0).val
      ∧ (i 0).val < win0_4.index ⟨(i 0).val / 256, hlt⟩ (0 : Fin 3) * 256 + 256
    omega
  | ⟨1, _⟩ =>
    show win0_4.index ⟨(i 0).val / 256, hlt⟩ (1 : Fin 3) * 12 ≤ (i 1).val
      ∧ (i 1).val < win0_4.index ⟨(i 0).val / 256, hlt⟩ (1 : Fin 3) * 12 + 12
    omega
  | ⟨2, _⟩ =>
    show win0_4.index ⟨(i 0).val / 256, hlt⟩ (2 : Fin 3) * 128 ≤ (i 2).val
      ∧ (i 2).val < win0_4.index ⟨(i 0).val / 256, hlt⟩ (2 : Fin 3) * 128 + 128
    omega

/-- So the node features end holding the whole result. -/
theorem final4 (h1 : Pay1) (c : Dev nD) :
    (dats m 0 c).arrAt 4 cfg0.N = Cert.GraphSpec.out (X₀ m c) (w₀ m c) (W₀ m c) (b₀ m c) :=
  (dats m 0 c).arrAt_eq_of_cover 4 (Cert.GraphSpec.out (X₀ m c) (w₀ m c) (W₀ m c) (b₀ m c))
    (fun t _ => flushed4_eq m h1 c t) cover4

theorem mem_blk5 (t : Fin cfg0.N) (i : S36x1.Idx) :
    i ∈ ((cfg0.win 5).blk t).view.set ↔ ∀ a : Fin 2, win0_5.index t a * S36x1.size a ≤ (i a).val
      ∧ (i a).val < win0_5.index t a * S36x1.size a + S36x1.size a := by
  show i ∈ ((View.whole main_v2_1).slice (win0_5.rect t)).set ↔ _
  rw [View.set_slice_whole, Rect.mem_set_unit]
  exact Iff.rfl

/-- The last point's write-back covers the weight column. -/
theorem cover5 (i : S36x1.Idx) :
    ∃ t : Fin cfg0.N, (cfg0.win 5).flush t = true ∧ i ∈ ((cfg0.win 5).blk t).view.set := by
  have hN : cfg0.N = 64 := N_0
  have hi0 : (i 0).val < 36 := (i 0).isLt
  have hi1 : (i 1).val < 1 := (i 1).isLt
  have hlt : 63 < cfg0.N := by rw [hN]; omega
  obtain ⟨_, _, _, _, _, _, _, _, _, _, _, _, h0, h1'⟩ := idx_facts ⟨63, hlt⟩
  refine ⟨⟨63, hlt⟩, (flush0_5 _).mpr rfl, ?_⟩
  rw [mem_blk5]
  intro a
  match a with
  | ⟨0, _⟩ =>
    show win0_5.index ⟨63, hlt⟩ (0 : Fin 2) * 36 ≤ (i 0).val ∧ (i 0).val < win0_5.index ⟨63, hlt⟩ (0 : Fin 2) * 36 + 36
    omega
  | ⟨1, _⟩ =>
    show win0_5.index ⟨63, hlt⟩ (1 : Fin 2) * 1 ≤ (i 1).val ∧ (i 1).val < win0_5.index ⟨63, hlt⟩ (1 : Fin 2) * 1 + 1
    omega

/-- So the weight column ends holding the softplus of every weight. -/
theorem final5 (h2 : Pay2) (c : Dev nD) : (dats m 0 c).arrAt 5 cfg0.N = wcol (w₀ m c) :=
  (dats m 0 c).arrAt_eq_of_cover 5 (wcol (w₀ m c)) (fun t _ => flushed5_eq m h2 c t) cover5

/-- The operation after the region re-lays the weight column as the vector of softplus weights. -/
theorem tail_v3 (h2 : Pay2) (c : Dev nD) :
    Pipeline.afterTail₀ cfgs (dats m) 0 (V0 m) [hostOps1] c main_v3 = Cert.GraphSpec.wts (w₀ m c) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2_1)
      = (dats m 0 c).arrAt 5 cfg0.N from Pipeline.withArrays_arr spec0 launch0.win.arr_inj c (V0 m c) _ 5,
    final5 m h2 c]
  funext i
  obtain ⟨e, rfl⟩ : ∃ e : Fin 36, i = ix1 e := ⟨i 0, eq_ix1 i⟩
  show shapeCast S36 (wcol (w₀ m c)) shapeCasts_S36x1_S36 (ix1 e) = Cert.GraphSpec.sp ((w₀ m c) (ix1 e))
  refine (shapeCast_apply _ _ (ix1 e) (ix2 e (0 : Fin 1)) ?_).trans rfl
  show (S36x1.rowMajor (ix2 e (0 : Fin 1))).val = (S36.rowMajor (ix1 e)).val
  rw [Shape.rowMajor_val_one, Shape.rowMajor_val_two]
  show e.val * 1 + 0 = e.val
  omega

/-- THE KERNEL PROGRAM'S RUN, READ: every weakly fair execution ends with the node features at the whole result, the
    second result at the softplus weights, and the four arguments as launched. -/
theorem run (h1 : Pay1) (h2 : Pay2) :
    θ_run defs (onTc (τ := τ) (main (F := Ideal))) ⟨m, fun _ => 0, ρ⟩ fun r => ∀ c : Dev nD,
      r.2.mem ((c.tc : Thread nD τ).loc main_v2_0) = Cert.GraphSpec.out (X₀ m c) (w₀ m c) (W₀ m c) (b₀ m c)
      ∧ r.2.mem ((c.tc : Thread nD τ).loc main_v3) = Cert.GraphSpec.wts (w₀ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final4 m h1 c),
      ((h c).2 main_v3 (Pipeline.mem_restRefs_of main_v3 (by decide) (by decide))).trans (tail_v3 m h2 c),
      ((h c).1 3).trans (((dats m 0 c).arrAt_in 3 rfl _).trans ((A_eq m c 3).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

end Cert.KernelIdeal.KFinal

end
-- ==== Proof.KernelPay2.lean ====
/-
  The kernel body's stored softplus column read at an index, at the extended reals.
-/
import proofs.«128990_g3865470566685_cont_8to1_b_833_6_alg».proof.Proof.Gen.KernelIdeal.Skeleton
import proofs.«128990_g3865470566685_cont_8to1_b_833_6_alg».proof.Proof.Spec
import Idealize.ShloMosaic.Lib.ValueIdx
import Idealize.ShloMosaic.Lib.Pipeline.Value
import Idealize.ShloMosaic.Lib.ValueLayout
import Idealize.ShloMosaic.PureOps.Ideal.Laws

namespace Cert.KernelIdeal.Pay

open Idealize.ShloMosaic Idealize.ShloMosaic.ValueIdx Cert.KernelIdeal

/-- An extended real is never different from itself, so the comparison "ordered and not equal" of a value with itself is
    the bit 0. -/
theorem cmp_one_self (x : EReal) : Ideal.cmp .one x x = 0#1 := by
  simp [Ideal.cmp]

/-- The softplus column the body stores, read at (e, z): the softplus of the weight there. -/
theorem pay2_apply (v0 : Vec Ideal S36x1 .f32) (e : Fin 36) (z : Fin 1) :
    Gen.k0_pay2 (F := Ideal) v0 (ix2 e z) = Cert.GraphSpec.sp (v0 (ix2 e z)) := by
  unfold Gen.k0_pay2
  rw [shapeCast_self]
  show Scalar.select (Ideal.cmp .one (v0 (ix2 e z) - Ideal.ofBits .f32 0x00000000#32) (v0 (ix2 e z) - Ideal.ofBits .f32 0x00000000#32))
      (v0 (ix2 e z) + Ideal.ofBits .f32 0x00000000#32)
      (max (v0 (ix2 e z)) (Ideal.ofBits .f32 0x00000000#32)
        + Ideal.log1p (Ideal.exp (Ideal.ofBits .f32 0x00000000#32
            - max (v0 (ix2 e z) - Ideal.ofBits .f32 0x00000000#32) (-(v0 (ix2 e z) - Ideal.ofBits .f32 0x00000000#32))))) = _
  rw [cmp_one_self, select_zero, Ideal.ofBits_zero_f32, sub_zero, zero_sub]
  rfl

end Cert.KernelIdeal.Pay
-- ==== Proof.LibSlabLayout.lean ====
/-
  Layout operations on a stack of matrices whose rows come in groups, read at an index (a general lemma file: nothing
  here mentions a program).

  A [1, a, b] array spread over m leading copies reads its one copy. A row-major array keeps its linear order under a
  reshape: a stack [256, 36, 128] whose 36 rows are 6 groups of 6 reshaped to [1536, 6, 128] reads, at (6p + i, k, d), the
  stack at (p, 6i + k, d); a [1536, 128] matrix reshaped to [256, 6, 128] reads, at (p, i, d), the matrix at (6p + i, d);
  a stack [256, 12, 128] flattened to [3072, 128] reads, at (12p + n, d), the stack at (p, n, d), and back. The sum over
  the middle axis of a [1536, 6, 128] array into the zero accumulator is, at (r, d), the sum of its six entries there.
  Two [256, 6, 128] stacks set one after the other along the middle axis read the first at a row below 6 and the
  second, six less, at a row from 6 on.
-/
import Idealize.ShloMosaic.Lib.Pipeline.Value
import Idealize.ShloMosaic.Lib.ValueIdx
import Idealize.ShloMosaic.Lib.ValueLayout
import Idealize.ShloMosaic.PureOps.Ideal.Laws

namespace Cert.SlabLayout

open Idealize.ShloMosaic Idealize.ShloMosaic.ValueIdx

variable {α : Type}

/-- `[1, a, b] → [m, a, b]`: the entry at `(p, i, j)` is the one copy's entry at `(0, i, j)`. -/
theorem broadcastTo_1ab_mab_apply {m a b : ℕ} (x : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ x h (ix3 p i j) = x (ix3 (0 : Fin 1) i j) := by
  refine broadcastTo_apply x h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- `[256, 36, 128] → [1536, 6, 128]`: the entry at `(r, k, d)` with `r = 6p + i` is the entry at `(p, e, d)` with
    `e = 6i + k`. -/
theorem shapeCast_groups_apply (x : (⟨3, ![256, 36, 128]⟩ : Shape).Idx → α)
    (h : (⟨3, ![256, 36, 128]⟩ : Shape).ShapeCasts ⟨3, ![1536, 6, 128]⟩)
    (r : Fin 1536) (k : Fin 6) (d : Fin 128) (p : Fin 256) (i : Fin 6) (e : Fin 36)
    (hr : r.val = 6 * p.val + i.val) (he : e.val = 6 * i.val + k.val) :
    shapeCast ⟨3, ![1536, 6, 128]⟩ x h (ix3 r k d) = x (ix3 p e d) :=
  shapeCast_apply x h _ _ (by
    rw [Shape.rowMajor_val_three, Shape.rowMajor_val_three]
    show (p.val * 36 + e.val) * 128 + d.val = (r.val * 6 + k.val) * 128 + d.val
    omega)

/-- `[1536, 128] → [256, 6, 128]`: the entry at `(p, i, d)` is the entry at `(r, d)` with `r = 6p + i`. -/
theorem shapeCast_rows_groups_apply (x : (⟨2, ![1536, 128]⟩ : Shape).Idx → α)
    (h : (⟨2, ![1536, 128]⟩ : Shape).ShapeCasts ⟨3, ![256, 6, 128]⟩)
    (p : Fin 256) (i : Fin 6) (d : Fin 128) (r : Fin 1536) (hr : r.val = 6 * p.val + i.val) :
    shapeCast ⟨3, ![256, 6, 128]⟩ x h (ix3 p i d) = x (ix2 r d) :=
  shapeCast_apply x h _ _ (by
    rw [Shape.rowMajor_val_three, Shape.rowMajor_val_two]
    show r.val * 128 + d.val = (p.val * 6 + i.val) * 128 + d.val
    omega)

/-- `[256, 12, 128] → [3072, 128]`: the entry at `(r, d)` with `r = 12p + n` is the entry at `(p, n, d)`. -/
theorem shapeCast_flatten_apply (x : (⟨3, ![256, 12, 128]⟩ : Shape).Idx → α)
    (h : (⟨3, ![256, 12, 128]⟩ : Shape).ShapeCasts ⟨2, ![3072, 128]⟩)
    (r : Fin 3072) (d : Fin 128) (p : Fin 256) (n : Fin 12) (hr : r.val = 12 * p.val + n.val) :
    shapeCast ⟨2, ![3072, 128]⟩ x h (ix2 r d) = x (ix3 p n d) :=
  shapeCast_apply x h _ _ (by
    rw [Shape.rowMajor_val_three, Shape.rowMajor_val_two]
    show (p.val * 12 + n.val) * 128 + d.val = r.val * 128 + d.val
    omega)

/-- `[3072, 128] → [256, 12, 128]`: the entry at `(p, n, d)` is the entry at `(r, d)` with `r = 12p + n`. -/
theorem shapeCast_unflatten_apply (x : (⟨2, ![3072, 128]⟩ : Shape).Idx → α)
    (h : (⟨2, ![3072, 128]⟩ : Shape).ShapeCasts ⟨3, ![256, 12, 128]⟩)
    (p : Fin 256) (n : Fin 12) (d : Fin 128) (r : Fin 3072) (hr : r.val = 12 * p.val + n.val) :
    shapeCast ⟨3, ![256, 12, 128]⟩ x h (ix3 p n d) = x (ix2 r d) :=
  shapeCast_apply x h _ _ (by
    rw [Shape.rowMajor_val_three, Shape.rowMajor_val_two]
    show r.val * 128 + d.val = (p.val * 12 + n.val) * 128 + d.val
    omega)

/-- The sum over the middle axis of a `[1536, 6, 128]` array of extended reals, into the zero accumulator, read at
    `(r, d)`: the sum of the six entries `(r, k, d)`. -/
theorem reduce_mid_apply (src : FVec Ideal ⟨3, ![1536, 6, 128]⟩ .f32)
    (h : (⟨3, ![1536, 6, 128]⟩ : Shape).Reduces [1] ⟨2, ![1536, 128]⟩) (hφ : FKind.Formats .f32)
    (hacc : (0x00000000#32 : BitVec 32) = FKind.add.neutral .f32 hφ) (r : Fin 1536) (d : Fin 128) :
    multiReduction .add [1] ⟨2, ![1536, 128]⟩ src 0x00000000#32 h hφ hacc (ix2 r d) = ∑ k : Fin 6, src (ix3 r k d) := by
  refine (Ideal.multiReduction_add_single src 0x00000000#32 h hφ hacc (ix2 r d)).trans ?_
  show ∑ k : Fin 6, src (h.lift (ix2 r d) k) = ∑ k : Fin 6, src (ix3 r k d)
  refine Finset.sum_congr rfl fun k _ => congrArg src ?_
  funext ax
  match ax with
  | ⟨0, _⟩ => exact Fin.ext rfl
  | ⟨1, _⟩ => exact Fin.ext rfl
  | ⟨2, _⟩ => exact Fin.ext rfl

/-- Two `[256, 6, 128]` stacks one after the other along the middle axis: a row below 6 reads the first stack. -/
theorem concat_mid_left (x₁ x₂ : (⟨3, ![256, 6, 128]⟩ : Shape).Idx → α)
    (h : Shape.Concatenates [(⟨3, ![256, 6, 128]⟩ : Shape), ⟨3, ![256, 6, 128]⟩] ⟨3, ![256, 12, 128]⟩ 1)
    (p : Fin 256) (n : Fin 12) (d : Fin 128) (n' : Fin 6) (hn : n'.val = n.val) :
    concatenate ⟨3, ![256, 12, 128]⟩ 1 [⟨⟨3, ![256, 6, 128]⟩, x₁⟩, ⟨⟨3, ![256, 6, 128]⟩, x₂⟩] h (ix3 p n d) = x₁ (ix3 p n' d) :=
  concatenate_pair_apply_left 1 x₁ x₂ h (ix3 p n d) rfl (ix3 p n' d) fun b => by
    match b with
    | ⟨0, _⟩ => rfl
    | ⟨1, _⟩ => exact hn
    | ⟨2, _⟩ => rfl

/-- Two `[256, 6, 128]` stacks one after the other along the middle axis: a row from 6 on reads the second stack, six
    less. -/
theorem concat_mid_right (x₁ x₂ : (⟨3, ![256, 6, 128]⟩ : Shape).Idx → α)
    (h : Shape.Concatenates [(⟨3, ![256, 6, 128]⟩ : Shape), ⟨3, ![256, 6, 128]⟩] ⟨3, ![256, 12, 128]⟩ 1)
    (p : Fin 256) (n : Fin 12) (d : Fin 128) (n' : Fin 6) (hn : n'.val + 6 = n.val) :
    concatenate ⟨3, ![256, 12, 128]⟩ 1 [⟨⟨3, ![256, 6, 128]⟩, x₁⟩, ⟨⟨3, ![256, 6, 128]⟩, x₂⟩] h (ix3 p n d) = x₂ (ix3 p n' d) :=
  concatenate_pair_apply_right 1 x₁ x₂ h (ix3 p n d) rfl rfl (ix3 p n' d) (fun b hb => by
    match b with
    | ⟨0, _⟩ => rfl
    | ⟨1, _⟩ => exact absurd rfl hb
    | ⟨2, _⟩ => rfl) hn

end Cert.SlabLayout
-- ==== Proof.LibRowLayout.lean ====
/-
  Layout operations on matrices, read at a row and a column.

  Two matrices with the same rows set side by side read, at a column, the left one when the column is inside its width
  and the right one, the left width less, otherwise. Two vectors set end to end read the same way. A column vector
  (one entry per row) spread over the columns reads its row's entry at every column; a vector given a trailing unit
  axis reads its entry at the row. A scalar spread over any shape reads the scalar.
-/
import Idealize.ShloMosaic.Lib.Pipeline.Value
import Idealize.ShloMosaic.Lib.ValueIdx
import Idealize.ShloMosaic.Lib.ValueLayout

namespace Idealize.ShloMosaic.RowLayout

open Idealize.ShloMosaic.ValueIdx

variable {α : Type}

/-- Side by side along the columns: a column inside the left width reads the left matrix there. -/
theorem concat_cols_left {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin a)
    (hk : k'.val = k.val) :
    concatenate ⟨2, ![n, c]⟩ 1 [⟨⟨2, ![n, a]⟩, x₁⟩, ⟨⟨2, ![n, b]⟩, x₂⟩] h (ix2 r k) = x₁ (ix2 r k') :=
  concatenate_pair_apply_left 1 x₁ x₂ h (ix2 r k) rfl (ix2 r k') fun d => by
    match d with
    | ⟨0, _⟩ => rfl
    | ⟨1, _⟩ => exact hk

/-- Side by side along the columns: a column past the left width reads the right matrix, the left width less. -/
theorem concat_cols_right {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin b)
    (hk : k'.val + a = k.val) :
    concatenate ⟨2, ![n, c]⟩ 1 [⟨⟨2, ![n, a]⟩, x₁⟩, ⟨⟨2, ![n, b]⟩, x₂⟩] h (ix2 r k) = x₂ (ix2 r k') :=
  concatenate_pair_apply_right 1 x₁ x₂ h (ix2 r k) rfl rfl (ix2 r k') (fun d hd => by
    match d with
    | ⟨0, _⟩ => rfl
    | ⟨1, _⟩ => exact absurd rfl hd) hk

/-- End to end: a position inside the first length reads the first vector there. -/
theorem concat_vec_left {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin a) (hk : k'.val = k.val) :
    concatenate ⟨1, ![c]⟩ 0 [⟨⟨1, ![a]⟩, x₁⟩, ⟨⟨1, ![b]⟩, x₂⟩] h (ix1 k) = x₁ (ix1 k') :=
  concatenate_pair_apply_left 0 x₁ x₂ h (ix1 k) rfl (ix1 k') fun d => by
    match d with
    | ⟨0, _⟩ => exact hk

/-- End to end: a position past the first length reads the second vector, the first length less. -/
theorem concat_vec_right {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin b) (hk : k'.val + a = k.val) :
    concatenate ⟨1, ![c]⟩ 0 [⟨⟨1, ![a]⟩, x₁⟩, ⟨⟨1, ![b]⟩, x₂⟩] h (ix1 k) = x₂ (ix1 k') :=
  concatenate_pair_apply_right 0 x₁ x₂ h (ix1 k) rfl rfl (ix1 k') (fun d hd => by
    match d with
    | ⟨0, _⟩ => exact absurd rfl hd) hk

/-- A column vector spread over `b` columns reads, at `(p, c)`, its entry of row `p`. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector given a trailing unit axis reads, at `(p, u)`, its entry `p`. -/
theorem shapeCast_a_a1_apply {a : Nat} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A scalar spread over any shape reads the scalar everywhere. -/
theorem spread_scalar {t : Shape} (h : (⟨0, ![]⟩ : Shape).BroadcastsInDim t ![]) (x : (⟨0, ![]⟩ : Shape).Idx → α) (j : t.Idx) :
    broadcastInDim t ![] h x j = x ix0 :=
  broadcastInDim_apply _ h x j ix0 (fun a => a.elim0)

/-- Two pieces joined along an axis, as a function of the two pieces: the library's `concatenate` of the two-element list of
    the pieces paired with their shapes. -/
def concat2 (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concat2_eq (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ x₁ x₂ h := rfl

end Idealize.ShloMosaic.RowLayout
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.LibRowsRows.lean ====
/-
  A matrix product of rows by rows, read at a row of each operand.

  When the left operand's columns are contracted against the right operand's columns — the product of an [M,K]
  matrix with the transpose of an [N,K] matrix — the product at (a, c), on the TensorCore into a zero accumulator, is,
  at the ideal values, the sum over the shared coordinate k of the left operand at (a, k) times the right operand at
  (c, k).
-/
import Idealize.ShloMosaic.PureOps.Ideal.Laws
import Idealize.ShloMosaic.Lib.ValueIdx
import proofs.«128990_g3865470566685_cont_8to1_b_833_6_alg».proof.Proof.LibContract

namespace Idealize.ShloMosaic.RowsRows

open Idealize.ShloMosaic.ValueIdx

variable {M K N : Nat} (d : DotDims ⟨2, ![M, K]⟩ ⟨2, ![N, K]⟩ ⟨2, ![M, N]⟩)

/-- The left operand's row is the output's row. -/
theorem lhs_row (hb : d.lhsBatch = []) (hn : d.lhsNonContracting = [0]) (j : (⟨2, ![M, N]⟩ : Shape).Idx) (q : d.contr.Idx) :
    (d.lhsIdx j q 0).val = (j 0).val := by
  unfold DotDims.lhsIdx
  have h0 : (0 : Fin 2) ∉ d.lhsBatch := by rw [hb]; exact List.not_mem_nil
  have h1 : (0 : Fin 2) ∈ d.lhsNonContracting := by rw [hn]; exact List.mem_singleton.mpr rfl
  rw [dif_neg h0, dif_pos h1]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hb, hn])

/-- The right operand's row is the output's column. -/
theorem rhs_row (hb : d.rhsBatch = []) (hlb : d.lhsBatch = []) (hln : d.lhsNonContracting = [0]) (hn : d.rhsNonContracting = [0])
    (j : (⟨2, ![M, N]⟩ : Shape).Idx) (q : d.contr.Idx) :
    (d.rhsIdx j q 0).val = (j 1).val := by
  unfold DotDims.rhsIdx
  have h0 : (0 : Fin 2) ∉ d.rhsBatch := by rw [hb]; exact List.not_mem_nil
  have h1 : (0 : Fin 2) ∈ d.rhsNonContracting := by rw [hn]; exact List.mem_singleton.mpr rfl
  rw [dif_neg h0, dif_pos h1]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hn])

variable (hcl : d.lhsContracting = [1]) (hcr : d.rhsContracting = [1])
  (hrank : d.contr.rank = 1) (hsize : d.contr.size ⟨0, by omega⟩ = K)
  (hl0 : ∀ (j : (⟨2, ![M, N]⟩ : Shape).Idx) (q : d.contr.Idx), (d.lhsIdx j q 0).val = (j 0).val)
  (hr0 : ∀ (j : (⟨2, ![M, N]⟩ : Shape).Idx) (q : d.contr.Idx), (d.rhsIdx j q 0).val = (j 1).val)

include hcl hl0 in
/-- The left operand's index at output (a, c) and shared coordinate k is (a, k). -/
theorem lhsIdx_eq (a : Fin M) (c : Fin N) (k : Fin K) :
    d.lhsIdx (ix2 a c) ((contrEquiv1 d K hrank hsize).symm k) = ix2 a k := by
  have hk := contrEquiv1_symm_val d K hrank hsize k
  funext x
  refine Fin.ext ?_
  match x with
  | ⟨0, _⟩ => exact hl0 _ _
  | ⟨1, _⟩ => exact (d.lhsIdx_val_of_single hcl _ _).trans hk

include hcr hr0 in
/-- The right operand's index at output (a, c) and shared coordinate k is (c, k). -/
theorem rhsIdx_eq (a : Fin M) (c : Fin N) (k : Fin K) :
    d.rhsIdx (ix2 a c) ((contrEquiv1 d K hrank hsize).symm k) = ix2 c k := by
  have hk := contrEquiv1_symm_val d K hrank hsize k
  funext x
  refine Fin.ext ?_
  match x with
  | ⟨0, _⟩ => exact hr0 _ _
  | ⟨1, _⟩ => exact (d.rhsIdx_val_of_single hcr _ _).trans hk

include hcl hcr hrank hsize hl0 hr0 in
/-- The TensorCore product into the zero accumulator at (a, c). -/
theorem matmul_zero_apply {φ₁ φ₂ : FTy} (prec : Option ContractPrecision)
    (lhs : FVec Ideal ⟨2, ![M, K]⟩ φ₁) (rhs : FVec Ideal ⟨2, ![N, K]⟩ φ₂) (a : Fin M) (c : Fin N) :
    FloatOps.matmul d prec lhs rhs (constant ⟨2, ![M, N]⟩ .f32 0x00000000#32) (ix2 a c) = ∑ k : Fin K, lhs (ix2 a k) * rhs (ix2 c k) :=
  ContractSingle.matmul_zero_single d prec K hrank hsize lhs rhs (ix2 a c) (fun k => lhs (ix2 a k)) (fun k => rhs (ix2 c k))
    (fun k => congrArg lhs (lhsIdx_eq d hcl hrank hsize hl0 a c k)) (fun k => congrArg rhs (rhsIdx_eq d hcr hrank hsize hr0 a c k))

end Idealize.ShloMosaic.RowsRows
-- ==== Proof.KernelPay.lean ====
/-
  The kernel body's two stored values read at an index, at the extended reals.

  The body first stores the softplus of the [36, 1] weight column. It then scales the [256, 36, 128] block of edge features
  by that column (spread over the features and over the samples), sums the scaled features onto the twelve nodes — the six
  source nodes by a sum over each group of six consecutive edges, the six destination nodes by adding the six slabs of
  six edges —, sets the two halves one after the other, flattens samples and nodes into 3072 rows, multiplies the rows by
  the rows of the [128, 128] matrix, adds the bias row, floors at zero and restores the [256, 12, 128] form. Read at
  (p, n, o) that is the specification's dense-layer cell of sample p, node n and output feature o.
-/
import proofs.«128990_g3865470566685_cont_8to1_b_833_6_alg».proof.Proof.Gen.KernelIdeal.Skeleton
import proofs.«128990_g3865470566685_cont_8to1_b_833_6_alg».proof.Proof.Spec
import proofs.«128990_g3865470566685_cont_8to1_b_833_6_alg».proof.Proof.KernelPay2
import proofs.«128990_g3865470566685_cont_8to1_b_833_6_alg».proof.Proof.LibSlabLayout
import proofs.«128990_g3865470566685_cont_8to1_b_833_6_alg».proof.Proof.LibRowLayout
import proofs.«128990_g3865470566685_cont_8to1_b_833_6_alg».proof.Proof.LibRowsRows
import Idealize.ShloMosaic.Lib.ValueIdx
import Idealize.ShloMosaic.Lib.Pipeline.Value
import Idealize.ShloMosaic.Lib.ValueLayout
import Idealize.ShloMosaic.PureOps.Ideal.Laws

namespace Cert.KernelIdeal.Pay

open Idealize.ShloMosaic Idealize.ShloMosaic.ValueIdx Cert.KernelIdeal

/-- The scaled block: the features times the weight column spread over the 128 features and the 256 samples, at
    (p, e, k), is the feature there times the weight of edge e. -/
theorem weighted_apply (w : FVec Ideal S36x1 .f32) (X : FVec Ideal S256x36x128 .f32)
    (h1 : S36x1.Broadcasts S36x128) (h2 : S36x128.ShapeCasts S1x36x128) (h3 : S1x36x128.Broadcasts S256x36x128)
    (p : Fin 256) (e : Fin 36) (k : Fin 128) :
    mulf X (broadcastTo S256x36x128 (shapeCast S1x36x128 (broadcastTo S36x128 w h1) h2) h3) (ix3 p e k)
      = X (ix3 p e k) * w (ix2 e 0) := by
  rw [mulf_apply]
  refine congrArg (X (ix3 p e k) * ·) ?_
  refine (SlabLayout.broadcastTo_1ab_mab_apply _ h3 p e k).trans ?_
  refine (shapeCast_ab_1ab_apply _ h2 0 e k).trans ?_
  exact RowLayout.broadcastTo_a1_ab_apply w h1 e k

/-- The six slabs of six edges added left to right, at (p, s, k): the sum over the six slabs i of the block at
    (p, 6i + s, k). -/
theorem slabs_apply (W : FVec Ideal S256x36x128 .f32)
    (h0 : S256x36x128.Slices ![0, 0, 0] S256x6x128) (h1 : S256x36x128.Slices ![0, 6, 0] S256x6x128)
    (h2 : S256x36x128.Slices ![0, 12, 0] S256x6x128) (h3 : S256x36x128.Slices ![0, 18, 0] S256x6x128)
    (h4 : S256x36x128.Slices ![0, 24, 0] S256x6x128) (h5 : S256x36x128.Slices ![0, 30, 0] S256x6x128)
    (p : Fin 256) (s : Fin 6) (k : Fin 128) (f : Fin 6 → Fin 36) (hf : ∀ i, (f i).val = 6 * i.val + s.val) :
    addf (addf (addf (addf (addf (extractStridedSlice S256x6x128 ![0, 0, 0] W h0) (extractStridedSlice S256x6x128 ![0, 6, 0] W h1))
      (extractStridedSlice S256x6x128 ![0, 12, 0] W h2)) (extractStridedSlice S256x6x128 ![0, 18, 0] W h3))
      (extractStridedSlice S256x6x128 ![0, 24, 0] W h4)) (extractStridedSlice S256x6x128 ![0, 30, 0] W h5) (ix3 p s k)
      = ∑ i : Fin 6, W (ix3 p (f i) k) := by
  rw [Fin.sum_univ_six]
  simp only [addf_apply]
  rw [slice3_axis1_apply 0 W h0 p s k (f 0) ((hf 0).trans rfl), slice3_axis1_apply 6 W h1 p s k (f 1) ((hf 1).trans rfl),
    slice3_axis1_apply 12 W h2 p s k (f 2) ((hf 2).trans rfl), slice3_axis1_apply 18 W h3 p s k (f 3) ((hf 3).trans rfl),
    slice3_axis1_apply 24 W h4 p s k (f 4) ((hf 4).trans rfl), slice3_axis1_apply 30 W h5 p s k (f 5) ((hf 5).trans rfl)]

/-- The record of the body's matrix product: rows against rows. -/
abbrev dotD : DotDims S3072x128 S128x128 S3072x128 := dot_S3072x128_S128x128_S3072x128_1_1_0_0_n_n

/-- The product of the 3072 rows with the rows of the matrix, into the zero accumulator, at (r, o). -/
theorem dense_apply (L : FVec Ideal S3072x128 .f32) (R : FVec Ideal S128x128 .f32) (r : Fin 3072) (o : Fin 128) :
    matmul dotD none L R (constant S3072x128 .f32 0x00000000#32) (ix2 r o) = ∑ k : Fin 128, L (ix2 r k) * R (ix2 o k) :=
  RowsRows.matmul_zero_apply dotD rfl rfl (by decide) rfl (RowsRows.lhs_row dotD rfl rfl) (RowsRows.rhs_row dotD rfl rfl rfl rfl)
    none L R r o

/-- The stored block at (p, n, o), over the product and the bias row it reads: the product at row 12p + n plus the bias
    entry, floored at zero. -/
theorem pay1_at (v40 : FVec Ideal S3072x128 .f32) (v42 : FVec Ideal S1x128 .f32) (p : Fin 256) (n : Fin 12) (o : Fin 128)
    (r : Fin 3072) (hr : r.val = 12 * p.val + n.val) :
    Gen.k0_pay1 (F := Ideal) v40 v42 (ix3 p n o) = max (v40 (ix2 r o) + v42 (ix2 0 o)) 0 := by
  unfold Gen.k0_pay1
  refine (SlabLayout.shapeCast_unflatten_apply _ _ p n o r hr).trans ?_
  rw [maximumf_apply, addf_apply, broadcast_apply, broadcastTo_1b_ab_apply]
  exact congrArg (max _) Ideal.ofBits_zero_f32

/-- The matrix product the body computes, at (r, o) with r = 12p + n: the sum over the 128 features k of the node's summed
    scaled features times the matrix entry (o, k). -/
theorem pay3_at (x0 : Vec Ideal S36x1 .f32) (x3 : Vec Ideal S256x36x128 .f32) (x1 : Vec Ideal S128x128 .f32)
    (p : Fin 256) (n : Fin 12) (o : Fin 128) (r : Fin 3072) (hr : r.val = 12 * p.val + n.val) :
    Gen.k0_pay3 (F := Ideal) x0 x3 x1 (ix2 r o)
      = ∑ k : Fin 128, Cert.GraphSpec.edgeSum (fun e => x3 (ix3 p e k) * Cert.GraphSpec.sp (x0 (ix2 e 0))) n * x1 (ix2 o k) := by
  unfold Gen.k0_pay3
  refine (dense_apply _ x1 r o).trans ?_
  refine Finset.sum_congr rfl fun k _ => congrArg (· * x1 (ix2 o k)) ?_
  refine (SlabLayout.shapeCast_flatten_apply _ _ r k p n hr).trans ?_
  -- the scaled block at (p, e, k)
  have hw : ∀ e : Fin 36,
      mulf x3 (broadcastTo S256x36x128 (shapeCast S1x36x128 (broadcastTo S36x128
        (shapeCast S36x1 (Gen.k0_pay2 x0) Gen.shapeCasts_S36x1_S36x1) Gen.broadcasts_S36x1_S36x128) Gen.shapeCasts_S36x128_S1x36x128)
        Gen.broadcasts_S1x36x128_S256x36x128) (ix3 p e k)
      = x3 (ix3 p e k) * Cert.GraphSpec.sp (x0 (ix2 e 0)) := fun e => by
    refine (weighted_apply _ x3 _ _ _ p e k).trans ?_
    rw [shapeCast_self, pay2_apply]
  unfold Cert.GraphSpec.edgeSum
  by_cases hn : n.val < 6
  · rw [if_pos hn]
    refine (SlabLayout.concat_mid_left _ _ _ p n k ⟨n.val, hn⟩ rfl).trans ?_
    refine (SlabLayout.shapeCast_rows_groups_apply _ _ p ⟨n.val, hn⟩ k ⟨6 * p.val + n.val, by omega⟩ rfl).trans ?_
    refine (SlabLayout.reduce_mid_apply _ _ _ _ _ k).trans ?_
    refine Finset.sum_congr rfl fun k' _ => ?_
    refine (SlabLayout.shapeCast_groups_apply _ _ _ k' k p ⟨n.val, hn⟩
      ⟨(6 * n.val + k'.val) % 36, Nat.mod_lt _ (by norm_num)⟩ rfl (by show (6 * n.val + k'.val) % 36 = 6 * n.val + k'.val; omega)).trans ?_
    exact hw _
  · rw [if_neg hn]
    refine (SlabLayout.concat_mid_right _ _ _ p n k ⟨n.val - 6, by omega⟩ (by show n.val - 6 + 6 = n.val; omega)).trans ?_
    refine (slabs_apply _ _ _ _ _ _ _ p ⟨n.val - 6, by omega⟩ k
      (fun i => ⟨(6 * i.val + (n.val - 6)) % 36, Nat.mod_lt _ (by norm_num)⟩)
      (fun i => by show (6 * i.val + (n.val - 6)) % 36 = 6 * i.val + (n.val - 6); omega)).trans ?_
    exact Finset.sum_congr rfl fun i _ => hw _

/-- The block the body stores, read at (p, n, o): the specification's dense-layer cell of sample p, node n and output
    feature o, over the scaled features of that sample, row o of the matrix and the bias entry o. -/
theorem pay1_apply (x0 : Vec Ideal S36x1 .f32) (x3 : Vec Ideal S256x36x128 .f32) (x1 : Vec Ideal S128x128 .f32)
    (x2 : Vec Ideal S1x128 .f32) (p : Fin 256) (n : Fin 12) (o : Fin 128) :
    Gen.k0_pay1 (F := Ideal) (Gen.k0_pay3 x0 x3 x1) (Gen.k0_pay4 x2) (ix3 p n o)
      = Cert.GraphSpec.cell (fun e k => x3 (ix3 p e k) * Cert.GraphSpec.sp (x0 (ix2 e 0))) (fun k => x1 (ix2 o k))
          (x2 (ix2 0 o)) n := by
  refine (pay1_at _ _ p n o ⟨12 * p.val + n.val, by omega⟩ rfl).trans ?_
  unfold Cert.GraphSpec.cell
  refine congrArg (max · 0) ?_
  refine congrArg₂ (· + ·) (pay3_at x0 x3 x1 p n o _ rfl) ?_
  unfold Gen.k0_pay4
  rw [shapeCast_self]

end Cert.KernelIdeal.Pay
-- ==== Proof.RefTerm.lean ====
/-
  The reference program's two results as composed terms of its four arguments: its host operations, one after the
  other, with every intermediate value substituted — the softplus of the edge weights; the features scaled by it; the two
  accumulating scatters onto the nodes (first along each edge's source node, then along its destination node, the node
  numbers two literal tables); the dense layer and the floor at zero.
-/
import proofs.«128990_g3865470566685_cont_8to1_b_833_6_alg».proof.ReferenceIdeal

noncomputable section

namespace Cert.ReferenceIdeal.RefTerm

open Idealize.ShloMosaic Cert.ReferenceIdeal Cert.ReferenceIdeal.Facts₀

variable {F : FTy → Type} [FloatOps F] [Facts]

/-- The zero vector the softplus compares and subtracts with. -/
def zero36 : FVec F S36 .f32 := broadcastInDim S36 ![] bcast_S_S36 (constant S_ .f32 0x00000000#32)

/-- The softplus of the edge weights, as the reference spells it: where x − 0 differs from itself, x + 0; elsewhere
    max(x, 0) + log1p(exp(−|x − 0|)). -/
def wtsT (x : FVec F S36 .f32) : FVec F S36 .f32 :=
  select (cmpf .une (subf x zero36) (subf x zero36)) (addf x zero36)
    (addf (maximumf x zero36) (Host.log1p (Host.exp (Host.negf (Host.absf (subf x zero36))))))

/-- A table of node numbers as the scatter's index column: a negative entry is moved up by 12 (none is), and the
    vector becomes a [36, 1] column. -/
def nodeIdx (tbl : Fin 36 → BitVec 32) : IVec S36x1 32 :=
  broadcastInDim S36x1 ![0] bcast_S36_S36x1_0
    (select (cmpi .slt (fun i => tbl (S36.rowMajor i)) (broadcastInDim S36 ![] bcast_S_S36 (constantI S_ 32 0#32)))
      (addi (fun i => tbl (S36.rowMajor i)) (broadcastInDim S36 ![] bcast_S_S36 (constantI S_ 32 12#32)))
      (fun i => tbl (S36.rowMajor i)))

/-- The edge features scaled by the softplus weights. -/
def wfT (X : FVec F S16384x36x128 .f32) (w : FVec F S36 .f32) : FVec F S16384x36x128 .f32 :=
  mulf X (broadcastInDim S16384x36x128 ![0, 1, 2] bcast_S1x36x1_S16384x36x128_0_1_2
    (shapeCast S1x36x1 (wtsT w) shapeCasts_S36_S1x36x1))

/-- The node features before the dense layer: zero, plus the scaled features scattered along the source nodes, plus the
    same scattered along the destination nodes. -/
def nodesT (X : FVec F S16384x36x128 .f32) (w : FVec F S36 .f32) : FVec F S16384x12x128 .f32 :=
  Host.scatterAdd scatter_S16384x12x128_S36x1_S16384x36x128_02_1_1_1
    (Host.scatterAdd scatter_S16384x12x128_S36x1_S16384x36x128_02_1_1_1
      (broadcastInDim S16384x12x128 ![] bcast_S_S16384x12x128 (constant S_ .f32 0x00000000#32)) (nodeIdx lit0) (wfT X w))
    (nodeIdx lit1) (wfT X w)

/-- The first result: the dense layer on the node features, floored at zero. -/
def outT (X : FVec F S16384x36x128 .f32) (w : FVec F S36 .f32) (W : FVec F S128x128 .f32) (b : FVec F S128 .f32) :
    FVec F S16384x12x128 .f32 :=
  maximumf
    (addf (Host.dotGeneral dot_S16384x12x128_S128x128_S16384x12x128_2_1_01_0_n_n none (nodesT X w) W)
      (broadcastInDim S16384x12x128 ![0, 1, 2] bcast_S1x1x128_S16384x12x128_0_1_2
        (broadcastInDim S1x1x128 ![2] bcast_S128_S1x1x128_2 b)))
    (broadcastInDim S16384x12x128 ![] bcast_S_S16384x12x128 (constant S_ .f32 0x00000000#32))

end Cert.ReferenceIdeal.RefTerm

end
-- ==== Proof.RefRun.lean ====
/-
  The reference program's run. Its @main is a straight line of 47 host operations: the two node tables, the fourteen
  operations of the softplus on the edge weights, the scaling of the features, the two accumulating scatters onto the
  nodes with their index columns, the dense layer (a contraction, the bias broadcast and added) and the three operations
  of the floor at zero. Listed in order, the program is the sequence of the list; every weakly fair execution then
  terminates with each buffer at the fold of the operations over the launch contents, and the fold at the two result
  buffers is the composed term of the four arguments, the arguments themselves untouched.
-/
import proofs.«128990_g3865470566685_cont_8to1_b_833_6_alg».proof.Proof.Gen.ReferenceIdeal
import proofs.«128990_g3865470566685_cont_8to1_b_833_6_alg».proof.Proof.RefTerm
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- @main's 47 operations, in order, the two calls' operations in their place over the calls' records. -/
abbrev ops : List (HloOp τ sig (Elt F)) :=
  [ nullary main_c (fun i => lit0 (S36.rowMajor i)),
    nullary main_c_0 (fun i => lit1 (S36.rowMajor i)),
    TRef.nullary main_call0.cst (constant S_ .f32 0x00000000#32),
    TRef.unary main_call0.cst main_call0.v0 (broadcastInDim S36 ![] bcast_S_S36),
    TRef.binary (.of main_arg1) main_call0.v0 main_call0.v1 maximumf,
    TRef.unary main_call0.cst main_call0.v2 (broadcastInDim S36 ![] bcast_S_S36),
    TRef.binary (.of main_arg1) main_call0.v2 main_call0.v3 subf,
    TRef.binary main_call0.v3 main_call0.v3 main_call0.v4 (cmpf .une),
    TRef.unary main_call0.cst main_call0.v5 (broadcastInDim S36 ![] bcast_S_S36),
    TRef.binary (.of main_arg1) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    reshape main_v0 main_v1 rfl shapeCasts_S36_S1x36x1,
    unary main_v1 main_v2 (broadcastInDim S16384x36x128 ![0, 1, 2] bcast_S1x36x1_S16384x36x128_0_1_2 : (⟨S1x36x1, .f32⟩ : BufTy).Contents (Elt F) → (⟨S16384x36x128, .f32⟩ : BufTy).Contents (Elt F)),
    binary main_arg0 main_v2 main_v3 (mulf : (⟨S16384x36x128, .f32⟩ : BufTy).Contents (Elt F) → (⟨S16384x36x128, .f32⟩ : BufTy).Contents (Elt F) → (⟨S16384x36x128, .f32⟩ : BufTy).Contents (Elt F)),
    nullary main_cst (constant S_ .f32 0x00000000#32),
    unary main_cst main_v4 (broadcastInDim S16384x12x128 ![] bcast_S_S16384x12x128 : (⟨S_, .f32⟩ : BufTy).Contents (Elt F) → (⟨S16384x12x128, .f32⟩ : BufTy).Contents (Elt F)),
    nullary main_c_1 (constantI S_ 32 0#32),
    unary main_c_1 main_v5 (broadcastInDim S36 ![] bcast_S_S36 : (⟨S_, .i32⟩ : BufTy).Contents (Elt F) → (⟨S36, .i32⟩ : BufTy).Contents (Elt F)),
    binary main_c main_v5 main_v6 (cmpi .slt : (⟨S36, .i32⟩ : BufTy).Contents (Elt F) → (⟨S36, .i32⟩ : BufTy).Contents (Elt F) → (⟨S36, .i1⟩ : BufTy).Contents (Elt F)),
    nullary main_c_2 (constantI S_ 32 12#32),
    unary main_c_2 main_v7 (broadcastInDim S36 ![] bcast_S_S36 : (⟨S_, .i32⟩ : BufTy).Contents (Elt F) → (⟨S36, .i32⟩ : BufTy).Contents (Elt F)),
    binary main_c main_v7 main_v8 (addi : (⟨S36, .i32⟩ : BufTy).Contents (Elt F) → (⟨S36, .i32⟩ : BufTy).Contents (Elt F) → (⟨S36, .i32⟩ : BufTy).Contents (Elt F)),
    ternary main_v6 main_v8 main_c main_v9 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    unary main_v9 main_v10 (broadcastInDim S36x1 ![0] bcast_S36_S36x1_0 : (⟨S36, .i32⟩ : BufTy).Contents (Elt F) → (⟨S36x1, .i32⟩ : BufTy).Contents (Elt F)),
    ternary main_v4 main_v10 main_v3 main_v11 ((fun x i u => Host.scatterAdd scatter_S16384x12x128_S36x1_S16384x36x128_02_1_1_1 x i u) : (⟨S16384x12x128, .f32⟩ : BufTy).Contents (Elt F) → (⟨S36x1, .i32⟩ : BufTy).Contents (Elt F) → (⟨S16384x36x128, .f32⟩ : BufTy).Contents (Elt F) → (⟨S16384x12x128, .f32⟩ : BufTy).Contents (Elt F)),
    nullary main_c_3 (constantI S_ 32 0#32),
    unary main_c_3 main_v12 (broadcastInDim S36 ![] bcast_S_S36 : (⟨S_, .i32⟩ : BufTy).Contents (Elt F) → (⟨S36, .i32⟩ : BufTy).Contents (Elt F)),
    binary main_c_0 main_v12 main_v13 (cmpi .slt : (⟨S36, .i32⟩ : BufTy).Contents (Elt F) → (⟨S36, .i32⟩ : BufTy).Contents (Elt F) → (⟨S36, .i1⟩ : BufTy).Contents (Elt F)),
    nullary main_c_4 (constantI S_ 32 12#32),
    unary main_c_4 main_v14 (broadcastInDim S36 ![] bcast_S_S36 : (⟨S_, .i32⟩ : BufTy).Contents (Elt F) → (⟨S36, .i32⟩ : BufTy).Contents (Elt F)),
    binary main_c_0 main_v14 main_v15 (addi : (⟨S36, .i32⟩ : BufTy).Contents (Elt F) → (⟨S36, .i32⟩ : BufTy).Contents (Elt F) → (⟨S36, .i32⟩ : BufTy).Contents (Elt F)),
    ternary main_v13 main_v15 main_c_0 main_v16 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    unary main_v16 main_v17 (broadcastInDim S36x1 ![0] bcast_S36_S36x1_0 : (⟨S36, .i32⟩ : BufTy).Contents (Elt F) → (⟨S36x1, .i32⟩ : BufTy).Contents (Elt F)),
    ternary main_v11 main_v17 main_v3 main_v18 ((fun x i u => Host.scatterAdd scatter_S16384x12x128_S36x1_S16384x36x128_02_1_1_1 x i u) : (⟨S16384x12x128, .f32⟩ : BufTy).Contents (Elt F) → (⟨S36x1, .i32⟩ : BufTy).Contents (Elt F) → (⟨S16384x36x128, .f32⟩ : BufTy).Contents (Elt F) → (⟨S16384x12x128, .f32⟩ : BufTy).Contents (Elt F)),
    binary main_v18 main_arg2 main_v19 ((fun l r => Host.dotGeneral dot_S16384x12x128_S128x128_S16384x12x128_2_1_01_0_n_n none l r) : (⟨S16384x12x128, .f32⟩ : BufTy).Contents (Elt F) → (⟨S128x128, .f32⟩ : BufTy).Contents (Elt F) → (⟨S16384x12x128, .f32⟩ : BufTy).Contents (Elt F)),
    unary main_arg3 main_v20 (broadcastInDim S1x1x128 ![2] bcast_S128_S1x1x128_2 : (⟨S128, .f32⟩ : BufTy).Contents (Elt F) → (⟨S1x1x128, .f32⟩ : BufTy).Contents (Elt F)),
    unary main_v20 main_v21 (broadcastInDim S16384x12x128 ![0, 1, 2] bcast_S1x1x128_S16384x12x128_0_1_2 : (⟨S1x1x128, .f32⟩ : BufTy).Contents (Elt F) → (⟨S16384x12x128, .f32⟩ : BufTy).Contents (Elt F)),
    binary main_v19 main_v21 main_v22 (addf : (⟨S16384x12x128, .f32⟩ : BufTy).Contents (Elt F) → (⟨S16384x12x128, .f32⟩ : BufTy).Contents (Elt F) → (⟨S16384x12x128, .f32⟩ : BufTy).Contents (Elt F)),
    TRef.nullary main_call1.cst (constant S_ .f32 0x00000000#32),
    TRef.unary main_call1.cst main_call1.v0 (broadcastInDim S16384x12x128 ![] bcast_S_S16384x12x128),
    TRef.binary (.of main_v22) main_call1.v0 main_call1.v1 maximumf ]

-- forty-seven binds re-associated: the rewrite under the chain recurses once per statement
set_option maxRecDepth 2048 in
/-- @main is that straight line: the two functions' definitions unfolded at their calls, both sides are one chain of
    host steps once sequencing is re-associated. -/
theorem main_eq (c : Dev nD) : main (F := F) c = seq ops := by
  simp only [main, fn_softplus.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub ..,
    reshape_bufs_sub .., unary_bufs_sub .., binary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., ternary_bufs_sub ..,
    binary_bufs_sub .., unary_bufs_sub .., unary_bufs_sub .., binary_bufs_sub ..,
    nullary_bufs_sub .., unary_bufs_sub .., binary_bufs_sub ..⟩

attribute [local irreducible] Host.scatterAdd in
set_option maxRecDepth 8192 in
set_option maxHeartbeats 400000 in
/-- The fold at the first result's buffer is the composed term by computation: the fold unrolled, each operation's result
    decides whether the buffer read is the one it writes, and the typed references' casts are the identity at these literal
    references. The scatter and the contraction stay folded meanwhile: the equation never looks inside them. -/
theorem out_eq (V : Valuation τ sig (Elt F)) :
    after ops V (main_v23 : DevRef τ sig)
      = RefTerm.outT (V (main_arg0 : DevRef τ sig)) (V (main_arg1 : DevRef τ sig)) (V (main_arg2 : DevRef τ sig))
          (V (main_arg3 : DevRef τ sig)) := by
  simp only [after_cons, after_nil]
  rfl

attribute [local irreducible] Host.scatterAdd in
set_option maxRecDepth 8192 in
/-- The fold at the second result's buffer — the last operation of the softplus — is the composed softplus of the weights,
    likewise by computation. -/
theorem wts_eq (V : Valuation τ sig (Elt F)) :
    after ops V (main_v0 : DevRef τ sig) = RefTerm.wtsT (V (main_arg1 : DevRef τ sig)) := by
  simp only [after_cons, after_nil]
  rfl

attribute [local irreducible] Host.scatterAdd in
set_option maxRecDepth 8192 in
/-- No operation writes an argument's buffer: the fold leaves the four arguments as they were. -/
theorem arg0_eq (V : Valuation τ sig (Elt F)) :
    after ops V (main_arg0 : DevRef τ sig) = V (main_arg0 : DevRef τ sig) := by
  simp only [after_cons, after_nil]
  rfl

attribute [local irreducible] Host.scatterAdd in
set_option maxRecDepth 8192 in
theorem arg1_eq (V : Valuation τ sig (Elt F)) :
    after ops V (main_arg1 : DevRef τ sig) = V (main_arg1 : DevRef τ sig) := by
  simp only [after_cons, after_nil]
  rfl

attribute [local irreducible] Host.scatterAdd in
set_option maxRecDepth 8192 in
theorem arg2_eq (V : Valuation τ sig (Elt F)) :
    after ops V (main_arg2 : DevRef τ sig) = V (main_arg2 : DevRef τ sig) := by
  simp only [after_cons, after_nil]
  rfl

attribute [local irreducible] Host.scatterAdd in
set_option maxRecDepth 8192 in
theorem arg3_eq (V : Valuation τ sig (Elt F)) :
    after ops V (main_arg3 : DevRef τ sig) = V (main_arg3 : DevRef τ sig) := by
  simp only [after_cons, after_nil]
  rfl

/-- On the device, for any float values, from any memory with zero counters: every weakly fair execution of @main
    terminates with the first result at the composed term of the four arguments, the second at the composed softplus of
    the weights, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = RefTerm.outT (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0) = RefTerm.wtsT (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v23).trans (out_eq _), (h c main_v0).trans (wts_eq _),
      (h c main_arg0).trans (arg0_eq _), (h c main_arg1).trans (arg1_eq _), (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.LibIdxSums.lean ====
/-
  Sums over array indices, coordinate by coordinate (a general lemma file: nothing here mentions a program).

  An index of a rank-3 or rank-5 array is the tuple of its coordinates, so a sum over all indices is the nested
  sum over the coordinates; the sum over the indices of a rank-5 array whose first two coordinates are fixed is
  the triple sum over the remaining three; and a sum over 64 depth coordinates is the sum over the first 32
  plus the sum over the last 32.
-/
import Idealize.ShloMosaic.Lib.ValueIdx

namespace Cert.NccIdx

open Idealize.ShloMosaic Idealize.ShloMosaic.ValueIdx Finset

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-5 index set is the product of its coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f,
    Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

theorem ix2_eq_iff {n0 n1 : Nat} (a a' : Fin n0) (b b' : Fin n1) : ix2 a b = ix2 a' b' ↔ a = a' ∧ b = b' :=
  ⟨fun h => ⟨congrFun h 0, congrFun h 1⟩, fun ⟨h0, h1⟩ => by rw [h0, h1]⟩

/-- The indices of a rank-5 array that project to the pair `(a₀, b₀)` of their first two coordinates are the
    `(a₀, b₀, c, d, e)`: the sum over them is the triple sum over the last three coordinates. -/
theorem sum_filter_proj {M : Type*} [AddCommMonoid M] {n0 n1 n2 n3 n4 : Nat}
    (proj : (⟨5, ![n0, n1, n2, n3, n4]⟩ : Shape).Idx → (⟨2, ![n0, n1]⟩ : Shape).Idx)
    (hproj : ∀ a b c d e, proj (ix5 a b c d e) = ix2 a b)
    (x : (⟨5, ![n0, n1, n2, n3, n4]⟩ : Shape).Idx → M) (a0 : Fin n0) (b0 : Fin n1) :
    ∑ i ∈ Finset.univ.filter (fun i => proj i = ix2 a0 b0), x i
      = ∑ c : Fin n2, ∑ d : Fin n3, ∑ e : Fin n4, x (ix5 a0 b0 c d e) := by
  rw [Finset.sum_filter, sum_idx5]
  simp only [hproj, ix2_eq_iff]
  rw [Finset.sum_eq_single a0]
  · rw [Finset.sum_eq_single b0]
    · simp
    · intro b _ hb
      simp [hb]
    · intro h; exact absurd (Finset.mem_univ _) h
  · intro a _ ha
    simp [ha]
  · intro h; exact absurd (Finset.mem_univ _) h

/-- The first 32 of 64 depth coordinates. -/
abbrev lo (d : Fin 32) : Fin 64 := ⟨d.val, by omega⟩
/-- The last 32 of 64 depth coordinates. -/
abbrev hi (d : Fin 32) : Fin 64 := ⟨32 + d.val, by omega⟩

/-- A sum over 64 depth coordinates splits into its two halves. -/
theorem sum_split64 {M : Type*} [AddCommMonoid M] (g : Fin 64 → M) :
    ∑ c : Fin 64, g c = (∑ d : Fin 32, g (lo d)) + ∑ d : Fin 32, g (hi d) := by
  have h := Fin.sum_univ_add (a := 32) (b := 32) (f := (g : Fin (32 + 32) → M))
  exact h

end Cert.NccIdx
-- ==== Proof.LibScatterRows.lean ====
/-
  A row scatter with accumulation, read at an index (a general lemma file: nothing here mentions a program).

  The operand is an array [A, N, D], the updates an array [A, E, D], the scatter indices a column [E, 1]. Update row
  e — the slice [·, e, ·] of the updates — is added onto operand row idx e — the slice [·, idx e, ·] — coordinate by
  coordinate on the two window axes: the update element (a, e, k) lands on the operand element (a, idx e, k), and is
  dropped when idx e, read as a signed integer, is not a row of the operand. So the scatter's value at (a, n, k) is the
  operand's plus the sum, over the update rows e whose index is n, of the update element (a, e, k).
-/
import Idealize.ShloMosaic.PureOps.Ideal
import Idealize.ShloMosaic.Lib.ValueIdx
import proofs.«128990_g3865470566685_cont_8to1_b_833_6_alg».proof.Proof.LibIdxSums

namespace Cert.ScatterRows

open Idealize.ShloMosaic Idealize.ShloMosaic.ValueIdx Finset

variable {A N E D w : Nat}

/-- The dimension numbers of a row scatter: the updates' axes 0 and 2 are window axes, going to the operand's axes 0
    and 2; the operand's axis 1 is the scattered one, its start read off the one-entry index vector. -/
abbrev rows (wf : ScatterDims.WF ⟨3, ![A, N, D]⟩ ⟨2, ![E, 1]⟩ ⟨3, ![A, E, D]⟩ [0, 2] [1] [1] 1) :
    ScatterDims ⟨3, ![A, N, D]⟩ ⟨2, ![E, 1]⟩ ⟨3, ![A, E, D]⟩ := ⟨[0, 2], [1], [1], 1, wf⟩

/-- Every record with these dimension numbers is `rows`. -/
theorem eq_rows (d : ScatterDims ⟨3, ![A, N, D]⟩ ⟨2, ![E, 1]⟩ ⟨3, ![A, E, D]⟩)
    (h1 : d.updateWindowDims = [0, 2]) (h2 : d.insertedWindowDims = [1]) (h3 : d.scatterDimsToOperandDims = [1])
    (h4 : d.indexVectorDim = 1) :
    ∃ wf, d = rows wf := by
  obtain ⟨uw, iw, sd, iv, wf⟩ := d
  dsimp only at h1 h2 h3 h4
  subst h1 h2 h3 h4
  exact ⟨wf, rfl⟩

/-- The start of the window of update element (a, e, k): the signed index of row e on the row axis, zero on the two
    window axes. -/
theorem start_rows (wf : ScatterDims.WF ⟨3, ![A, N, D]⟩ ⟨2, ![E, 1]⟩ ⟨3, ![A, E, D]⟩ [0, 2] [1] [1] 1)
    (idx : IVec ⟨2, ![E, 1]⟩ w) (a : Fin A) (e : Fin E) (k : Fin D) :
    (rows wf).start (ix3 a e k) idx 0 = 0 ∧ (rows wf).start (ix3 a e k) idx 1 = (idx (ix2 e 0)).toInt ∧
      (rows wf).start (ix3 a e k) idx 2 = 0 := by
  refine ⟨rfl, ?_, rfl⟩
  have hi : (rows wf).siIdx (ix3 a e k) ⟨0, Nat.zero_lt_one⟩ = ix2 e 0 := by
    funext b
    match b with
    | ⟨0, _⟩ => rfl
    | ⟨1, _⟩ => rfl
  exact congrArg (fun i => (idx i).toInt) hi

/-- The window coordinate of update element (a, e, k): a and k on the two window axes, zero on the row axis. -/
theorem window_rows (wf : ScatterDims.WF ⟨3, ![A, N, D]⟩ ⟨2, ![E, 1]⟩ ⟨3, ![A, E, D]⟩ [0, 2] [1] [1] 1)
    (a : Fin A) (e : Fin E) (k : Fin D) :
    (rows wf).window (ix3 a e k) 0 = a.val ∧ (rows wf).window (ix3 a e k) 1 = 0 ∧
      (rows wf).window (ix3 a e k) 2 = k.val :=
  ⟨rfl, rfl, rfl⟩

/-- Update element (a, e, k) lands on operand element (a', n, k') exactly when a' = a, k' = k and row e's signed
    index is n. -/
theorem resultIdx?_rows (wf : ScatterDims.WF ⟨3, ![A, N, D]⟩ ⟨2, ![E, 1]⟩ ⟨3, ![A, E, D]⟩ [0, 2] [1] [1] 1)
    (idx : IVec ⟨2, ![E, 1]⟩ w) (a : Fin A) (e : Fin E) (k : Fin D) (a' : Fin A) (n : Fin N) (k' : Fin D) :
    (rows wf).resultIdx? (ix3 a e k) idx = some (ix3 a' n k')
      ↔ a' = a ∧ k' = k ∧ (idx (ix2 e 0)).toInt = (n.val : Int) := by
  obtain ⟨hs0, hs1, hs2⟩ := start_rows wf idx a e k
  obtain ⟨hw0, hw1, hw2⟩ := window_rows wf a e k
  unfold ScatterDims.resultIdx?
  split
  · next h =>
    rw [Option.some.injEq]
    constructor
    · intro hf
      have e0 := congrArg Fin.val (congrFun hf 0)
      have e1 := congrArg Fin.val (congrFun hf 1)
      have e2 := congrArg Fin.val (congrFun hf 2)
      have b1 := h 1
      simp only [hs0, hs1, hs2, hw0, hw1, hw2] at e0 e1 e2 b1
      change _ = a'.val at e0
      change _ = n.val at e1
      change _ = k'.val at e2
      refine ⟨Fin.ext ?_, Fin.ext ?_, ?_⟩ <;> omega
    · rintro ⟨rfl, rfl, hn⟩
      funext ax
      match ax with
      | ⟨0, _⟩ =>
        refine Fin.ext ?_
        show ((rows wf).start (ix3 a' e k') idx 0 + (((rows wf).window (ix3 a' e k') 0 : Nat) : Int)).toNat = a'.val
        rw [hs0, hw0]; omega
      | ⟨1, _⟩ =>
        refine Fin.ext ?_
        show ((rows wf).start (ix3 a' e k') idx 1 + (((rows wf).window (ix3 a' e k') 1 : Nat) : Int)).toNat = n.val
        rw [hs1, hw1, hn]; omega
      | ⟨2, _⟩ =>
        refine Fin.ext ?_
        show ((rows wf).start (ix3 a' e k') idx 2 + (((rows wf).window (ix3 a' e k') 2 : Nat) : Int)).toNat = k'.val
        rw [hs2, hw2]; omega
  · next h =>
    refine iff_of_false (by simp) ?_
    rintro ⟨rfl, rfl, hn⟩
    refine h fun ax => ?_
    match ax with
    | ⟨0, _⟩ =>
      show 0 ≤ (rows wf).start (ix3 a' e k') idx 0 + (((rows wf).window (ix3 a' e k') 0 : Nat) : Int) ∧
        (rows wf).start (ix3 a' e k') idx 0 + (((rows wf).window (ix3 a' e k') 0 : Nat) : Int) < ((A : Nat) : Int)
      rw [hs0, hw0]
      have := a'.isLt
      omega
    | ⟨1, _⟩ =>
      show 0 ≤ (rows wf).start (ix3 a' e k') idx 1 + (((rows wf).window (ix3 a' e k') 1 : Nat) : Int) ∧
        (rows wf).start (ix3 a' e k') idx 1 + (((rows wf).window (ix3 a' e k') 1 : Nat) : Int) < ((N : Nat) : Int)
      rw [hs1, hw1, hn]
      have := n.isLt
      omega
    | ⟨2, _⟩ =>
      show 0 ≤ (rows wf).start (ix3 a' e k') idx 2 + (((rows wf).window (ix3 a' e k') 2 : Nat) : Int) ∧
        (rows wf).start (ix3 a' e k') idx 2 + (((rows wf).window (ix3 a' e k') 2 : Nat) : Int) < ((D : Nat) : Int)
      rw [hs2, hw2]
      have := k'.isLt
      omega

/-- The accumulating row scatter at (a, n, k): the operand there plus the update elements (a, e, k) of the rows e
    whose signed index is n. -/
theorem hostScatterAdd_rows' (wf : ScatterDims.WF ⟨3, ![A, N, D]⟩ ⟨2, ![E, 1]⟩ ⟨3, ![A, E, D]⟩ [0, 2] [1] [1] 1)
    (x : (⟨3, ![A, N, D]⟩ : Shape).Idx → EReal) (idx : IVec ⟨2, ![E, 1]⟩ w)
    (upd : (⟨3, ![A, E, D]⟩ : Shape).Idx → EReal) (a : Fin A) (n : Fin N) (k : Fin D) :
    Ideal.hostScatterAdd (rows wf) x idx upd (ix3 a n k)
      = x (ix3 a n k) + ∑ e : Fin E, if (idx (ix2 e 0)).toInt = (n.val : Int) then upd (ix3 a e k) else 0 := by
  unfold Ideal.hostScatterAdd
  refine congrArg (x (ix3 a n k) + ·) ?_
  rw [Finset.sum_filter, Cert.NccIdx.sum_idx3]
  simp only [resultIdx?_rows]
  rw [Finset.sum_eq_single a]
  · refine Finset.sum_congr rfl fun e _ => ?_
    rw [Finset.sum_eq_single k]
    · by_cases he : (idx (ix2 e 0)).toInt = (n.val : Int)
      · rw [if_pos ⟨rfl, rfl, he⟩, if_pos he]
      · rw [if_neg fun h => he h.2.2, if_neg he]
    · intro k' _ hk'
      exact if_neg fun h => hk' h.2.1.symm
    · intro h; exact absurd (Finset.mem_univ _) h
  · intro a' _ ha'
    exact Finset.sum_eq_zero fun e _ => Finset.sum_eq_zero fun k' _ => if_neg fun h => ha' h.1.symm
  · intro h; exact absurd (Finset.mem_univ _) h

/-- The same for any record with these dimension numbers. -/
theorem hostScatterAdd_rows (d : ScatterDims ⟨3, ![A, N, D]⟩ ⟨2, ![E, 1]⟩ ⟨3, ![A, E, D]⟩)
    (h1 : d.updateWindowDims = [0, 2]) (h2 : d.insertedWindowDims = [1]) (h3 : d.scatterDimsToOperandDims = [1])
    (h4 : d.indexVectorDim = 1)
    (x : (⟨3, ![A, N, D]⟩ : Shape).Idx → EReal) (idx : IVec ⟨2, ![E, 1]⟩ w)
    (upd : (⟨3, ![A, E, D]⟩ : Shape).Idx → EReal) (a : Fin A) (n : Fin N) (k : Fin D) :
    Ideal.hostScatterAdd d x idx upd (ix3 a n k)
      = x (ix3 a n k) + ∑ e : Fin E, if (idx (ix2 e 0)).toInt = (n.val : Int) then upd (ix3 a e k) else 0 := by
  obtain ⟨wf, rfl⟩ := eq_rows d h1 h2 h3 h4
  exact hostScatterAdd_rows' wf x idx upd a n k

/-- Where an update element lands, for any record with these dimension numbers. -/
theorem resultIdx?_of_dims (d : ScatterDims ⟨3, ![A, N, D]⟩ ⟨2, ![E, 1]⟩ ⟨3, ![A, E, D]⟩)
    (h1 : d.updateWindowDims = [0, 2]) (h2 : d.insertedWindowDims = [1]) (h3 : d.scatterDimsToOperandDims = [1])
    (h4 : d.indexVectorDim = 1)
    (idx : IVec ⟨2, ![E, 1]⟩ w) (a : Fin A) (e : Fin E) (k : Fin D) (a' : Fin A) (n : Fin N) (k' : Fin D) :
    d.resultIdx? (ix3 a e k) idx = some (ix3 a' n k')
      ↔ a' = a ∧ k' = k ∧ (idx (ix2 e 0)).toInt = (n.val : Int) := by
  obtain ⟨wf, rfl⟩ := eq_rows d h1 h2 h3 h4
  exact resultIdx?_rows wf idx a e k a' n k'

end Cert.ScatterRows
-- ==== Proof.RefCount.lean ====
/-
  The counting law behind the two scatters: summing an edge-indexed family onto the nodes.

  Edge e = 6·i + k runs from source node i = e / 6 to destination node 6 + k = 6 + e % 6. Adding every edge's value
  onto its source node and then onto its destination node leaves, on node n, the sum over the six edges that touch it:
  the edges 6·n + k out of a source node n < 6, the edges 6·i + (n − 6) into a destination node n ≥ 6.
-/
import proofs.«128990_g3865470566685_cont_8to1_b_833_6_alg».proof.Proof.Spec

namespace Cert.ReferenceIdeal.RefNodes

open Finset

/-- Edge 6·i + k, from source i to destination 6 + k. -/
def edge (i k : Fin 6) : Fin 36 := ⟨6 * i.val + k.val, by omega⟩

/-- A sum over the 36 edges is the double sum over sources and destinations. -/
theorem sum_edges {M : Type*} [AddCommMonoid M] (g : Fin 36 → M) :
    ∑ e, g e = ∑ i : Fin 6, ∑ k : Fin 6, g (edge i k) := by
  have h := (Equiv.sum_comp (finProdFinEquiv (m := 6) (n := 6)) g).symm
  rw [Fintype.sum_prod_type] at h
  refine h.trans (Finset.sum_congr rfl fun i _ => Finset.sum_congr rfl fun k _ => congrArg g (Fin.ext ?_))
  show k.val + 6 * i.val = 6 * i.val + k.val
  omega

/-- Zero, plus every edge's value on its source node, plus every edge's value on its destination node, is on node n
    the sum over the edges at n. -/
theorem count_law (f : Fin 36 → EReal) (n : Fin 12) :
    0 + (∑ e : Fin 36, if e.val / 6 = n.val then f e else 0)
      + (∑ e : Fin 36, if 6 + e.val % 6 = n.val then f e else 0) = Cert.GraphSpec.edgeSum f n := by
  have hd : ∀ i k : Fin 6, (edge i k).val / 6 = i.val := fun i k => by
    show (6 * i.val + k.val) / 6 = i.val
    have := k.isLt; omega
  have hm : ∀ i k : Fin 6, (edge i k).val % 6 = k.val := fun i k => by
    show (6 * i.val + k.val) % 6 = k.val
    have := k.isLt; omega
  rw [zero_add, sum_edges, sum_edges]
  simp only [hd, hm]
  unfold Cert.GraphSpec.edgeSum
  by_cases hn : n.val < 6
  · rw [if_pos hn]
    have h2 : (∑ i : Fin 6, ∑ k : Fin 6, if 6 + k.val = n.val then f (edge i k) else 0) = 0 :=
      Finset.sum_eq_zero fun i _ => Finset.sum_eq_zero fun k _ => if_neg (by omega)
    rw [h2, add_zero, Finset.sum_eq_single (⟨n.val, hn⟩ : Fin 6)]
    · refine Finset.sum_congr rfl fun k _ => ?_
      rw [if_pos rfl]
      refine congrArg f (Fin.ext ?_)
      show 6 * n.val + k.val = (6 * n.val + k.val) % 36
      have := k.isLt; omega
    · intro i _ hi
      exact Finset.sum_eq_zero fun k _ => if_neg fun h => hi (Fin.ext h)
    · intro h; exact absurd (Finset.mem_univ _) h
  · rw [if_neg hn]
    have h1 : (∑ i : Fin 6, ∑ k : Fin 6, if i.val = n.val then f (edge i k) else 0) = 0 :=
      Finset.sum_eq_zero fun i _ => Finset.sum_eq_zero fun k _ => if_neg (by have := i.isLt; omega)
    rw [h1, zero_add]
    refine Finset.sum_congr rfl fun i _ => ?_
    have hlt : n.val - 6 < 6 := by have := n.isLt; omega
    rw [Finset.sum_eq_single (⟨n.val - 6, hlt⟩ : Fin 6)]
    · rw [if_pos (by show 6 + (n.val - 6) = n.val; omega)]
      refine congrArg f (Fin.ext ?_)
      show 6 * i.val + (n.val - 6) = (6 * i.val + (n.val - 6)) % 36
      have := i.isLt; omega
    · intro k _ hk
      exact if_neg fun h => hk (Fin.ext (by show k.val = n.val - 6; omega))
    · intro h; exact absurd (Finset.mem_univ _) h

end Cert.ReferenceIdeal.RefNodes
-- ==== Proof.RefTables.lean ====
/-
  The two node tables of the reference, read at an edge.

  The scatter's index column is made from a table of node numbers by moving a negative entry up by 12 and turning the
  vector into a [36, 1] column. No entry is negative, so the column's entry at edge e is the table's: e / 6, the edge's
  source node, for the first table and 6 + e % 6, its destination node, for the second.
-/
import proofs.«128990_g3865470566685_cont_8to1_b_833_6_alg».proof.Proof.Gen.ReferenceIdeal
import proofs.«128990_g3865470566685_cont_8to1_b_833_6_alg».proof.Proof.RefTerm
import Idealize.ShloMosaic.Lib.ValueIdx
import Idealize.ShloMosaic.Lib.Pipeline.Value

namespace Cert.ReferenceIdeal.RefNodes

open Idealize.ShloMosaic Idealize.ShloMosaic.ValueIdx Cert.ReferenceIdeal

/-- The row-major position of a vector's index is its coordinate. -/
theorem rowMajor_ix1 (e : Fin 36) : S36.rowMajor (ix1 e) = e := Fin.ext (Shape.rowMajor_val_one _)

/-- The index column at edge e: the table's entry, moved up by 12 when negative. -/
theorem nodeIdx_apply (tbl : Fin 36 → BitVec 32) (e : Fin 36) :
    RefTerm.nodeIdx tbl (ix2 e 0)
      = Scalar.select (IntOp.cmpi .slt (tbl e) 0#32) (IntOp.addi (tbl e) 12#32) (tbl e) := by
  unfold RefTerm.nodeIdx
  refine (broadcastInDim_apply _ _ _ (ix2 e 0) (ix1 e) fun a => ?_).trans ?_
  · match a with
    | ⟨0, _⟩ =>
      show e.val = if (36 : Nat) = 1 then 0 else e.val
      rw [if_neg (by decide)]
  · show Scalar.select (IntOp.cmpi .slt (tbl (S36.rowMajor (ix1 e))) 0#32)
      (IntOp.addi (tbl (S36.rowMajor (ix1 e))) 12#32) (tbl (S36.rowMajor (ix1 e))) = _
    rw [rowMajor_ix1]

/-- The first table's column at edge e is the edge's source node e / 6. -/
theorem nodeIdx_lit0 (e : Fin 36) : (RefTerm.nodeIdx lit0 (ix2 e 0)).toInt = ((e.val / 6 : Nat) : Int) := by
  rw [nodeIdx_apply]
  fin_cases e <;> decide

/-- The second table's column at edge e is the edge's destination node 6 + e % 6. -/
theorem nodeIdx_lit1 (e : Fin 36) : (RefTerm.nodeIdx lit1 (ix2 e 0)).toInt = ((6 + e.val % 6 : Nat) : Int) := by
  rw [nodeIdx_apply]
  fin_cases e <;> decide

end Cert.ReferenceIdeal.RefNodes
-- ==== Proof.RefWts.lean ====
/-
  The reference's softplus weights and scaled features, read at an index, at the extended reals.

  At the extended reals a value never differs from itself, so the reference's guard "x − 0 ≠ x − 0" is never taken and
  its softplus is max(x, 0) + log1p(exp(−|x − 0|)) with |y| = max(y, −y): the target's softplus. The scaled features
  multiply the feature of sample a, edge e, feature k by the weight of edge e: the weights are given unit axes on both
  sides and spread over samples and features, which reads the weight of edge e at every (a, e, k).
-/
import proofs.«128990_g3865470566685_cont_8to1_b_833_6_alg».proof.Proof.Gen.ReferenceIdeal
import proofs.«128990_g3865470566685_cont_8to1_b_833_6_alg».proof.Proof.RefTerm
import proofs.«128990_g3865470566685_cont_8to1_b_833_6_alg».proof.Proof.Spec
import Idealize.ShloMosaic.Lib.ValueIdx
import Idealize.ShloMosaic.Lib.Pipeline.Value
import Idealize.ShloMosaic.PureOps.Ideal.Laws

namespace Cert.ReferenceIdeal.RefNodes

open Idealize.ShloMosaic Idealize.ShloMosaic.ValueIdx Cert.ReferenceIdeal

/-- The zero vector reads zero. -/
theorem zero36_apply (i : S36.Idx) : RefTerm.zero36 (F := Ideal) i = 0 := Ideal.ofBits_zero_f32

/-- The reference's softplus weights are the target's. -/
theorem wtsT_eq (w : FVec Ideal S36 .f32) : RefTerm.wtsT (F := Ideal) w = Cert.GraphSpec.wts w := by
  funext e
  unfold RefTerm.wtsT
  rw [select_apply, cmpf_apply]
  have hc : FloatOps.cmpf (F := Ideal) .une (subf w RefTerm.zero36 e) (subf w RefTerm.zero36 e) = 0#1 := by
    show Ideal.cmp .une _ _ = 0#1
    simp [Ideal.cmp]
  rw [hc, select_zero, addf_apply, maximumf_apply, zero36_apply]
  show max (w e) 0 + Ideal.log1p (Ideal.exp (-(max (w e - RefTerm.zero36 e) (-(w e - RefTerm.zero36 e)))))
    = Cert.GraphSpec.sp (w e)
  rw [zero36_apply, sub_zero]
  rfl

/-- The scaled features at (a, e, k): the feature times the softplus weight of edge e. -/
theorem wfT_apply (X : FVec Ideal S16384x36x128 .f32) (w : FVec Ideal S36 .f32) (a : Fin 16384) (e : Fin 36)
    (k : Fin 128) :
    RefTerm.wfT (F := Ideal) X w (ix3 a e k) = X (ix3 a e k) * Cert.GraphSpec.sp (w (ix1 e)) := by
  unfold RefTerm.wfT
  rw [mulf_apply, wtsT_eq]
  refine congrArg (X (ix3 a e k) * ·) ?_
  refine (broadcastInDim_apply _ _ _ (ix3 a e k) (ix3 (0 : Fin 1) e (0 : Fin 1)) fun ax => ?_).trans ?_
  · match ax with
    | ⟨0, _⟩ =>
      show (0 : Nat) = if (1 : Nat) = 1 then 0 else a.val
      rw [if_pos rfl]
    | ⟨1, _⟩ =>
      show e.val = if (36 : Nat) = 1 then 0 else e.val
      rw [if_neg (by decide)]
    | ⟨2, _⟩ =>
      show (0 : Nat) = if (1 : Nat) = 1 then 0 else k.val
      rw [if_pos rfl]
  · refine (shapeCast_apply _ _ _ (ix1 e) ?_).trans rfl
    rw [Shape.rowMajor_val_one, Shape.rowMajor_val_three]
    show e.val = (0 * 36 + e.val) * 1 + 0
    omega

end Cert.ReferenceIdeal.RefNodes
-- ==== Proof.RefNodes.lean ====
/-
  The reference's node sums, read at an index, at the extended reals.

  The reference adds the scaled feature of every edge onto the edge's source node and then onto its destination node,
  by two accumulating row scatters into an array of zeros. Read at sample a, node n, feature k, each scatter adds the
  scaled features (a, e, k) of the edges e whose table entry is n; the tables are e / 6 and 6 + e % 6, so by the
  counting law the result is the sum of the scaled features over the six edges at node n.
-/
import proofs.«128990_g3865470566685_cont_8to1_b_833_6_alg».proof.Proof.Gen.ReferenceIdeal
import proofs.«128990_g3865470566685_cont_8to1_b_833_6_alg».proof.Proof.RefTerm
import proofs.«128990_g3865470566685_cont_8to1_b_833_6_alg».proof.Proof.Spec
import proofs.«128990_g3865470566685_cont_8to1_b_833_6_alg».proof.Proof.LibScatterRows
import proofs.«128990_g3865470566685_cont_8to1_b_833_6_alg».proof.Proof.RefCount
import proofs.«128990_g3865470566685_cont_8to1_b_833_6_alg».proof.Proof.RefTables
import proofs.«128990_g3865470566685_cont_8to1_b_833_6_alg».proof.Proof.RefWts

namespace Cert.ReferenceIdeal.RefNodes

open Idealize.ShloMosaic Idealize.ShloMosaic.ValueIdx Cert.ReferenceIdeal

/-- The reference's node features before the dense layer at (a, n, k): the sum over the edges at node n of the feature
    (a, e, k) times the softplus weight of edge e. -/
theorem nodesT_apply (X : FVec Ideal S16384x36x128 .f32) (w : FVec Ideal S36 .f32) (a : Fin 16384) (n : Fin 12)
    (k : Fin 128) :
    RefTerm.nodesT (F := Ideal) X w (ix3 a n k)
      = Cert.GraphSpec.edgeSum (fun e => X (ix3 a e k) * Cert.GraphSpec.sp (w (ix1 e))) n := by
  have hz : ∀ (h : S_.BroadcastsInDim S16384x12x128 ![]),
      broadcastInDim S16384x12x128 ![] h (constant (F := Ideal) S_ .f32 0x00000000#32) (ix3 a n k) = 0 :=
    fun _ => Ideal.ofBits_zero_f32
  unfold RefTerm.nodesT Host.scatterAdd
  rw [Ideal.hostScatterAdd_def, Cert.ScatterRows.hostScatterAdd_rows _ rfl rfl rfl rfl,
    Ideal.hostScatterAdd_def, Cert.ScatterRows.hostScatterAdd_rows _ rfl rfl rfl rfl, hz]
  simp only [nodeIdx_lit0, nodeIdx_lit1, wfT_apply, Nat.cast_inj]
  exact count_law _ n

end Cert.ReferenceIdeal.RefNodes
-- ==== Proof.LibBatchRows.lean ====
/-
  A stack of matrices times the transpose of a matrix, read at an index.

  When the last axis of a three-axis array is contracted against the last axis of a matrix — every row of the stack against
  every row of the matrix — the product at `(a, b, c)`, on the host or on the TensorCore into a zero accumulator, is at the
  ideal values the sum over the shared coordinate `k` of the array at `(a, b, k)` times the matrix at `(c, k)`.
-/
import Idealize.ShloMosaic.PureOps.Ideal.Laws
import Idealize.ShloMosaic.Lib.ValueIdx
import proofs.«128990_g3865470566685_cont_8to1_b_833_6_alg».proof.Proof.LibContract

namespace Idealize.ShloMosaic.BatchRows

open Idealize.ShloMosaic.ValueIdx

variable {A B K N : Nat} (d : DotDims ⟨3, ![A, B, K]⟩ ⟨2, ![N, K]⟩ ⟨3, ![A, B, N]⟩)
  (hcl : d.lhsContracting = [2]) (hcr : d.rhsContracting = [1])
  (hrank : d.contr.rank = 1) (hsize : d.contr.size ⟨0, by omega⟩ = K)
  (hl0 : ∀ (j : (⟨3, ![A, B, N]⟩ : Shape).Idx) (q : d.contr.Idx), (d.lhsIdx j q 0).val = (j 0).val)
  (hl1 : ∀ (j : (⟨3, ![A, B, N]⟩ : Shape).Idx) (q : d.contr.Idx), (d.lhsIdx j q 1).val = (j 1).val)
  (hr0 : ∀ (j : (⟨3, ![A, B, N]⟩ : Shape).Idx) (q : d.contr.Idx), (d.rhsIdx j q 0).val = (j 2).val)

include hcl hl0 hl1 in
/-- The array's index at output `(a, b, c)` and shared coordinate `k` is `(a, b, k)`. -/
theorem lhsIdx_eq (a : Fin A) (b : Fin B) (c : Fin N) (k : Fin K) :
    d.lhsIdx (ix3 a b c) ((contrEquiv1 d K hrank hsize).symm k) = ix3 a b k := by
  have hk := contrEquiv1_symm_val d K hrank hsize k
  funext x
  refine Fin.ext ?_
  match x with
  | ⟨0, _⟩ => exact hl0 _ _
  | ⟨1, _⟩ => exact hl1 _ _
  | ⟨2, _⟩ => exact (d.lhsIdx_val_of_single hcl _ _).trans hk

include hcr hr0 in
/-- The matrix's index at output `(a, b, c)` and shared coordinate `k` is `(c, k)`. -/
theorem rhsIdx_eq (a : Fin A) (b : Fin B) (c : Fin N) (k : Fin K) :
    d.rhsIdx (ix3 a b c) ((contrEquiv1 d K hrank hsize).symm k) = ix2 c k := by
  have hk := contrEquiv1_symm_val d K hrank hsize k
  funext x
  refine Fin.ext ?_
  match x with
  | ⟨0, _⟩ => exact hr0 _ _
  | ⟨1, _⟩ => exact (d.rhsIdx_val_of_single hcr _ _).trans hk

include hcl hcr hrank hsize hl0 hl1 hr0 in
/-- The host's `dot_general` at `(a, b, c)`. -/
theorem dotGeneral_apply {φ₁ φ₂ : FTy} (prec : Option ContractPrecision) (sched : HostSchedule)
    (lhs : FVec Ideal ⟨3, ![A, B, K]⟩ φ₁) (rhs : FVec Ideal ⟨2, ![N, K]⟩ φ₂) (a : Fin A) (b : Fin B) (c : Fin N) :
    FloatOps.dotGeneral d prec sched lhs rhs (ix3 a b c) = ∑ k : Fin K, lhs (ix3 a b k) * rhs (ix2 c k) :=
  ContractSingle.dotGeneral_single d prec sched K hrank hsize lhs rhs (ix3 a b c) (fun k => lhs (ix3 a b k)) (fun k => rhs (ix2 c k))
    (fun k => congrArg lhs (lhsIdx_eq d hcl hrank hsize hl0 hl1 a b c k)) (fun k => congrArg rhs (rhsIdx_eq d hcr hrank hsize hr0 a b c k))

include hcl hcr hrank hsize hl0 hl1 hr0 in
/-- The TensorCore product into the zero accumulator at `(a, b, c)`. -/
theorem matmul_zero_apply {φ₁ φ₂ : FTy} (prec : Option ContractPrecision)
    (lhs : FVec Ideal ⟨3, ![A, B, K]⟩ φ₁) (rhs : FVec Ideal ⟨2, ![N, K]⟩ φ₂) (a : Fin A) (b : Fin B) (c : Fin N) :
    FloatOps.matmul d prec lhs rhs (constant ⟨3, ![A, B, N]⟩ .f32 0x00000000#32) (ix3 a b c) = ∑ k : Fin K, lhs (ix3 a b k) * rhs (ix2 c k) :=
  ContractSingle.matmul_zero_single d prec K hrank hsize lhs rhs (ix3 a b c) (fun k => lhs (ix3 a b k)) (fun k => rhs (ix2 c k))
    (fun k => congrArg lhs (lhsIdx_eq d hcl hrank hsize hl0 hl1 a b c k)) (fun k => congrArg rhs (rhsIdx_eq d hcr hrank hsize hr0 a b c k))

end Idealize.ShloMosaic.BatchRows
-- ==== Proof.RefOut.lean ====
/-
  The reference's first result is the specified one, given its node sums.

  The reference contracts the feature axis of the node sums against the feature axis of the matrix (a sum over the 128
  features of node sum times matrix entry), adds the bias entry of the output feature, and floors at zero: entry by entry
  the dense layer of the specification.
-/
import proofs.«128990_g3865470566685_cont_8to1_b_833_6_alg».proof.Proof.Gen.ReferenceIdeal
import proofs.«128990_g3865470566685_cont_8to1_b_833_6_alg».proof.Proof.RefTerm
import proofs.«128990_g3865470566685_cont_8to1_b_833_6_alg».proof.Proof.Spec
import proofs.«128990_g3865470566685_cont_8to1_b_833_6_alg».proof.Proof.LibBatchRows
import Idealize.ShloMosaic.Lib.Pipeline.Value
import Idealize.ShloMosaic.Lib.ValueIdx
import Idealize.ShloMosaic.PureOps.Ideal.Laws

noncomputable section

namespace Cert.ReferenceIdeal.RefOut

open Idealize.ShloMosaic Idealize.ShloMosaic.ValueIdx Cert.ReferenceIdeal Cert.ReferenceIdeal.Facts₀

/-- The contraction's dimension numbers: the last axis of [16384, 12, 128] against the last axis of [128, 128]. -/
abbrev D : DotDims S16384x12x128 S128x128 S16384x12x128 := dot_S16384x12x128_S128x128_S16384x12x128_2_1_01_0_n_n

theorem key3 (j : S16384x12x128.Idx) : ∀ (p q : Nat) (hp : p < 3) (hq : q < 3), p = q → (j ⟨p, hp⟩).val = (j ⟨q, hq⟩).val :=
  fun p q hp hq h => by subst h; rfl

/-- The left operand is read at the output's sample … -/
theorem hl0 (j : S16384x12x128.Idx) (q : D.contr.Idx) : (D.lhsIdx j q 0).val = (j 0).val := by
  unfold DotDims.lhsIdx
  have h0 : (0 : Fin 3) ∉ D.lhsBatch := List.not_mem_nil
  have h1 : (0 : Fin 3) ∈ D.lhsNonContracting := by decide
  rw [dif_neg h0, dif_pos h1]
  simp only [Fin.val_cast]
  exact key3 j _ _ _ _ (by decide)

/-- … and node, -/
theorem hl1 (j : S16384x12x128.Idx) (q : D.contr.Idx) : (D.lhsIdx j q 1).val = (j 1).val := by
  unfold DotDims.lhsIdx
  have h0 : (1 : Fin 3) ∉ D.lhsBatch := List.not_mem_nil
  have h1 : (1 : Fin 3) ∈ D.lhsNonContracting := by decide
  rw [dif_neg h0, dif_pos h1]
  simp only [Fin.val_cast]
  exact key3 j _ _ _ _ (by decide)

/-- and the matrix at the row of the output feature. -/
theorem hr0 (j : S16384x12x128.Idx) (q : D.contr.Idx) : (D.rhsIdx j q 0).val = (j 2).val := by
  unfold DotDims.rhsIdx
  have h0 : (0 : Fin 2) ∉ D.rhsBatch := List.not_mem_nil
  have h1 : (0 : Fin 2) ∈ D.rhsNonContracting := by decide
  rw [dif_neg h0, dif_pos h1]
  simp only [Fin.val_cast]
  exact key3 j _ _ _ _ (by decide)

/-- The contraction at (a, n, o): the sum over the features k of the left operand at (a, n, k) times the matrix at (o, k). -/
theorem dot_apply (l : FVec Ideal S16384x12x128 .f32) (r : FVec Ideal S128x128 .f32) (a : Fin 16384) (n : Fin 12) (o : Fin 128) :
    Host.dotGeneral D none l r (ix3 a n o) = ∑ k : Fin 128, l (ix3 a n k) * r (ix2 o k) :=
  BatchRows.dotGeneral_apply D rfl rfl rfl rfl hl0 hl1 hr0 none .single l r a n o

/-- The bias vector spread over samples and nodes reads its entry at the output feature. -/
theorem bias_apply (b : FVec Ideal S128 .f32) (a : Fin 16384) (n : Fin 12) (o : Fin 128) :
    broadcastInDim S16384x12x128 ![0, 1, 2] bcast_S1x1x128_S16384x12x128_0_1_2
      (broadcastInDim S1x1x128 ![2] bcast_S128_S1x1x128_2 b) (ix3 a n o) = b (ix1 o) := by
  refine (broadcastInDim_apply _ _ _ (ix3 a n o) (ix3 (0 : Fin 1) (0 : Fin 1) o) ?_).trans ?_
  · intro x
    match x with
    | ⟨0, _⟩ => rfl
    | ⟨1, _⟩ => rfl
    | ⟨2, _⟩ => rfl
  · refine broadcastInDim_apply _ _ _ _ (ix1 o) ?_
    intro x
    match x with
    | ⟨0, _⟩ => rfl

/-- The zero array reads zero. -/
theorem zero_apply (a : Fin 16384) (n : Fin 12) (o : Fin 128) :
    broadcastInDim S16384x12x128 ![] bcast_S_S16384x12x128 (constant (F := Ideal) S_ .f32 0x00000000#32) (ix3 a n o) = 0 := by
  refine (broadcastInDim_apply _ _ _ (ix3 a n o) ix0 (fun x => x.elim0)).trans ?_
  rw [constant_apply, Ideal.ofBits_zero_f32]

/-- THE REFERENCE'S FIRST RESULT is the specified one, once its node sums are the specified edge sums. -/
theorem outT_eq (X : FVec Ideal S16384x36x128 .f32) (w : FVec Ideal S36 .f32) (W : FVec Ideal S128x128 .f32) (b : FVec Ideal S128 .f32)
    (hn : ∀ (a : Fin 16384) (n : Fin 12) (k : Fin 128), RefTerm.nodesT (F := Ideal) X w (ix3 a n k)
      = Cert.GraphSpec.edgeSum (fun e => X (ix3 a e k) * Cert.GraphSpec.sp (w (ix1 e))) n) :
    RefTerm.outT (F := Ideal) X w W b = Cert.GraphSpec.out X w W b := by
  funext j
  obtain ⟨a, n, o, rfl⟩ : ∃ (a : Fin 16384) (n : Fin 12) (o : Fin 128), j = ix3 a n o := ⟨j 0, j 1, j 2, eq_ix3 j⟩
  rw [Cert.GraphSpec.out_ix3]
  unfold RefTerm.outT Cert.GraphSpec.outAt Cert.GraphSpec.cell
  rw [maximumf_apply, addf_apply, zero_apply, bias_apply]
  refine congrArg (fun s => max (s + b (ix1 o)) 0) ?_
  refine (dot_apply _ W a n o).trans ?_
  exact Finset.sum_congr rfl fun k _ => by rw [hn a n k]

end Cert.ReferenceIdeal.RefOut

end
-- ==== Proof.lean ====
/- The proof of `Cert.Claim` (proofs.«128990_g3865470566685_cont_8to1_b_833_6_alg».proof.Defs).

   Both programs compute, for 16384 samples of a bipartite graph with 6 source and 6 destination nodes and one edge from
   every source to every destination: the softplus of the 36 edge weights; every edge's 128 features scaled by its
   softplus weight; the sum of the scaled features onto the edge's two end nodes; a dense layer (128×128 matrix, bias) on
   every node's summed features, floored at zero.  `GraphSpec.out` and `GraphSpec.wts` (Proof/Spec.lean) state the two
   results as functions of the four arguments, entry by entry, on the extended reals.

   The kernel program: the generated frame run names what each grid point writes back; Proof/KernelPay.lean reads the
   body's arithmetic at an index (the six-slab sum and the grouped lane sum are the two halves of the node axis, the
   matrix product into a zero accumulator a sum over the features); Proof/KBlocks.lean reads each window's block off
   its argument; Proof/KFinal.lean shows that point t writes block t of `GraphSpec.out`, that the 64 blocks tile the
   result, that the weight column is written whole and re-laid as a vector after the region, and states the run.
   The reference program: Proof/RefRun.lean runs its host operations to the composed terms of Proof/RefTerm.lean;
   Proof/RefNodes.lean reads the two accumulating scatters at an index — an update lands on node n exactly when the
   literal table holds n at its edge, so node n collects the six edges that leave it or reach it —; Proof/RefOut.lean
   reads the contraction, the bias and the floor.  No step needs the inputs finite: only commutativity and associativity
   of the extended reals' sum are used, and 0 + x = x.

   The three frames are the generated frame certificates (the two kernel programs) and the reference's run with the results
   dropped; the idealization rewrote nothing, so `preserves` is `True`. -/
import proofs.«128990_g3865470566685_cont_8to1_b_833_6_alg».proof.Defs
import proofs.«128990_g3865470566685_cont_8to1_b_833_6_alg».proof.Proof.Gen.Kernel
import proofs.«128990_g3865470566685_cont_8to1_b_833_6_alg».proof.Proof.Gen.Kernel.Skeleton
import proofs.«128990_g3865470566685_cont_8to1_b_833_6_alg».proof.Proof.Gen.Kernel.Launch
import proofs.«128990_g3865470566685_cont_8to1_b_833_6_alg».proof.Proof.Gen.Kernel.Points
import proofs.«128990_g3865470566685_cont_8to1_b_833_6_alg».proof.Proof.Gen.Kernel.Frame
import proofs.«128990_g3865470566685_cont_8to1_b_833_6_alg».proof.Proof.Gen.KernelIdeal
import proofs.«128990_g3865470566685_cont_8to1_b_833_6_alg».proof.Proof.Gen.KernelIdeal.Skeleton
import proofs.«128990_g3865470566685_cont_8to1_b_833_6_alg».proof.Proof.Gen.KernelIdeal.Launch
import proofs.«128990_g3865470566685_cont_8to1_b_833_6_alg».proof.Proof.Gen.KernelIdeal.Points
import proofs.«128990_g3865470566685_cont_8to1_b_833_6_alg».proof.Proof.Gen.KernelIdeal.Frame
import proofs.«128990_g3865470566685_cont_8to1_b_833_6_alg».proof.Proof.Gen.ReferenceIdeal
import proofs.«128990_g3865470566685_cont_8to1_b_833_6_alg».proof.Proof.Gen.Pre_finite_inputs
import proofs.«128990_g3865470566685_cont_8to1_b_833_6_alg».proof.Proof.KFinal
import proofs.«128990_g3865470566685_cont_8to1_b_833_6_alg».proof.Proof.KernelPay
import proofs.«128990_g3865470566685_cont_8to1_b_833_6_alg».proof.Proof.RefRun
import proofs.«128990_g3865470566685_cont_8to1_b_833_6_alg».proof.Proof.RefNodes
import proofs.«128990_g3865470566685_cont_8to1_b_833_6_alg».proof.Proof.RefOut
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- Both programs end with the node features at `GraphSpec.out` and the second result at `GraphSpec.wts` of arguments
    that agree. -/
theorem algebraic : Cert.algebraic_KernelIdeal_ReferenceIdeal := by
  intro m ρ m' ρ' _ hagree
  refine ⟨_, _, Cert.KernelIdeal.KFinal.run m ρ Cert.KernelIdeal.Pay.pay1_apply Cert.KernelIdeal.Pay.pay2_apply, ?_⟩
  refine (θ_run Cert.ReferenceIdeal.defs _ _).mono (fun _ h c => ?_) (Cert.ReferenceIdeal.RefRun.run (F := Ideal) m' ρ')
  obtain ⟨h0, h1, h2, h3, h4, h5⟩ := h c
  obtain ⟨a0, a1, a2, a3⟩ := hagree c
  refine ⟨h0.trans ?_, h1.trans ?_, h2, h3, h4, h5⟩
  · rw [Cert.ReferenceIdeal.RefOut.outT_eq _ _ _ _ (Cert.ReferenceIdeal.RefNodes.nodesT_apply _ _), a0, a1, a2, a3]
  · rw [Cert.ReferenceIdeal.RefNodes.wtsT_eq, a1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
